-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x3200000 : Shape := ⟨2, ![2, 3200000]⟩
abbrev S3200000 : Shape := ⟨1, ![3200000]⟩
abbrev S6x64 : Shape := ⟨2, ![6, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_arg12 : FVec F S5 .f32) (main_v48 : IVec S_ 1) (main_v49 : FVec F S64x5 .f32) (main_v50 : FVec F S64x5 .f32) : IVec S_ 1 :=
  let main_v51 : IVec S64x5 1 := cmpf .olt main_v49 main_v50
  let main_c_19 : IVec S_ 1 := constantI S_ 1 1#1
  let main_v52 : IVec S_ 1 := (fun x v => Host.reduce IntOp.andi x v reducesTo_S64x5_S_d0_1 h_S_) main_v51 main_c_19
  let main_v53 : IVec S_ 1 := andi main_v48 main_v52
  let main_v54 : FVec F S5 .f32 := Host.absf main_arg12
  let main_cst_20 : FVec F S_ .f32 := constant S_ .f32 0x7F800000#32
  let main_v55 : FVec F S5 .f32 := broadcastInDim S5 ![] bcast_S_S5 main_cst_20
  let main_v56 : IVec S5 1 := cmpf .olt main_v54 main_v55
  let main_c_21 : IVec S_ 1 := constantI S_ 1 1#1
  let main_v57 : IVec S_ 1 := (fun x v => Host.reduce IntOp.andi x v reducesTo_S5_S_d0 h_S_) main_v56 main_c_21
  let main_v58 : IVec S_ 1 := andi main_v53 main_v57
  main_v58

def fn_part2 {F : FTy → Type} [FloatOps F] (main_arg8 : FVec F S64 .f32) (main_arg9 : FVec F S64x64 .f32) (main_arg10 : FVec F S64 .f32) (main_arg11 : FVec F S64x5 .f32) (main_arg12 : FVec F S5 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x5 .f32 := Host.absf main_arg11
  let main_cst_18 : FVec F S_ .f32 := constant S_ .f32 0x7F800000#32
  let main_v50 : FVec F S64x5 .f32 := broadcastInDim S64x5 ![] bcast_S_S64x5 main_cst_18
  fn_part3 (F := F) main_arg12 main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x5 .f32) (main_arg12 : FVec F S5 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x6 .f32) (main_arg1 : IVec S2x3200000 32) (main_arg2 : FVec F S3200000 .f32) (main_arg3 : FVec F S6x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x5 .f32) (main_arg12 : FVec F S5 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S6x64 .f32 := Host.absf main_arg3
  let main_cst_2 : FVec F S_ .f32 := constant S_ .f32 0x7F800000#32
  let main_v10 : FVec F S6x64 .f32 := broadcastInDim S6x64 ![] bcast_S_S6x64 main_cst_2
  let main_v11 : IVec S6x64 1 := cmpf .olt main_v9 main_v10
  let main_c_3 : IVec S_ 1 := constantI S_ 1 1#1
  let main_v12 : IVec S_ 1 := (fun x v => Host.reduce IntOp.andi x v reducesTo_S6x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x6 : Shape := ⟨2, ![100000, 6]⟩
abbrev S2x3200000 : Shape := ⟨2, ![2, 3200000]⟩
abbrev S3200000 : Shape := ⟨1, ![3200000]⟩
abbrev S6x64 : Shape := ⟨2, ![6, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x6 : Shape := ⟨2, ![10000, 6]⟩
abbrev S10000x64 : Shape := ⟨2, ![10000, 64]⟩
abbrev S3300000x64 : Shape := ⟨2, ![3300000, 64]⟩
abbrev S1x64 : Shape := ⟨2, ![1, 64]⟩
abbrev S50000x64 : Shape := ⟨2, ![50000, 64]⟩
abbrev S1x5 : Shape := ⟨2, ![1, 5]⟩
abbrev S50000x5 : Shape := ⟨2, ![50000, 5]⟩
abbrev S10000x5 : Shape := ⟨2, ![10000, 5]⟩

abbrev nBuf : Space → Nat
  | .hbm => 130
  | .vmem => 30
  | .smem => 0
  | _ => 0

abbrev hbmTy0_0 (i : Nat) : BufTy := match i % 128 with
  | 0 => ⟨S100000x6, .f32⟩
  | 1 => ⟨S2x3200000, .i32⟩
  | 2 => ⟨S3200000, .f32⟩
  | 3 => ⟨S6x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x5, .f32⟩
  | 12 => ⟨S5, .f32⟩
  | 13 => ⟨S100000, .i32⟩
  | 14 => ⟨S1x3200000, .i32⟩
  | 15 => ⟨S3200000, .i32⟩
  | 16 => ⟨S3300000, .i32⟩
  | 17 => ⟨S1x3200000, .i32⟩
  | 18 => ⟨S3200000, .i32⟩
  | 19 => ⟨S3300000, .i32⟩
  | 20 => ⟨S_, .f32⟩
  | 21 => ⟨S100000, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S3300000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S3300000, .f32⟩
  | 55 => ⟨S100000x64, .f32⟩
  | 56 => ⟨S_, .i32⟩
  | 57 => ⟨S3300000, .i32⟩
  | 58 => ⟨S3300000, .i1⟩
  | 59 => ⟨S_, .i32⟩
  | 60 => ⟨S3300000, .i32⟩
  | 61 => ⟨S3300000, .i32⟩
  | 62 => ⟨S3300000, .i32⟩
  | 63 => ⟨S3300000x1, .i32⟩
  | 64 => ⟨S3300000x64, .f32⟩
  | 65 => ⟨S3300000x1, .f32⟩
  | 66 => ⟨S3300000x64, .f32⟩
  | 67 => ⟨S3300000x64, .f32⟩
  | 68 => ⟨S_, .f32⟩
  | 69 => ⟨S100000x64, .f32⟩
  | 70 => ⟨S3300000x1, .i32⟩
  | 71 => ⟨S100000x64, .f32⟩
  | 72 => ⟨S1x64, .f32⟩
  | 73 => ⟨S100000x64, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000x64, .f32⟩
  | 83 => ⟨S3300000x1, .f32⟩
  | 84 => ⟨S3300000x64, .f32⟩
  | 85 => ⟨S3300000x64, .f32⟩
  | 86 => ⟨S_, .f32⟩
  | 87 => ⟨S100000x64, .f32⟩
  | 88 => ⟨S3300000x1, .i32⟩
  | 89 => ⟨S100000x64, .f32⟩
  | 90 => ⟨S1x64, .f32⟩
  | 91 => ⟨S100000x64, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000x64, .f32⟩
  | 101 => ⟨S3300000x1, .f32⟩
  | 102 => ⟨S3300000x64, .f32⟩
  | 103 => ⟨S3300000x64, .f32⟩
  | 104 => ⟨S_, .f32⟩
  | 105 => ⟨S100000x64, .f32⟩
  | 106 => ⟨S3300000x1, .i32⟩
  | 107 => ⟨S100000x64, .f32⟩
  | 108 => ⟨S1x64, .f32⟩
  | 109 => ⟨S100000x64, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x64, .f32⟩
  | 119 => ⟨S3300000x1, .f32⟩
  | 120 => ⟨S3300000x64, .f32⟩
  | 121 => ⟨S3300000x64, .f32⟩
  | 122 => ⟨S_, .f32⟩
  | 123 => ⟨S100000x64, .f32⟩
  | 124 => ⟨S3300000x1, .i32⟩
  | 125 => ⟨S100000x64, .f32⟩
  | 126 => ⟨S50000x64, .f32⟩
  | 127 => ⟨S1x64, .f32⟩
  | _ => ⟨S100000x6, .f32⟩

abbrev hbmTy0_1 (i : Nat) : BufTy := match i % 128 with
  | 0 => ⟨S1x5, .f32⟩
  | 1 => ⟨S50000x5, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | .local _ .vmem, ⟨0, _⟩ => ⟨S10000x6, .f32⟩
  | .local _ .vmem, ⟨1, _⟩ => ⟨S10000x6, .f32⟩
  | .local _ .vmem, ⟨2, _⟩ => ⟨S6x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S64x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S1x64, .f32⟩
  | .local _ .vmem, ⟨26, _⟩ => ⟨S64x5, .f32⟩
  | .local _ .vmem, ⟨27, _⟩ => ⟨S1x5, .f32⟩
  | .local _ .vmem, ⟨28, _⟩ => ⟨S10000x5, .f32⟩
  | .local _ .vmem, ⟨29, _⟩ => ⟨S10000x5, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_15 : Ref sig .tc := ⟨.hbm, 110, rfl⟩
abbrev main_v78 : Ref sig .tc := ⟨.hbm, 111, rfl⟩
abbrev main_v79 : Ref sig .tc := ⟨.hbm, 112, rfl⟩
abbrev main_c_16 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_17 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem4_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x5 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x5 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x5 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x6_S10000x6_0_0 : ∀ a, (![0, 0] : Fin 2 → Nat) a + S10000x6.size a ≤ S10000x6.size a
  h_S10000x6 : 0 < S10000x6.numel
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  slices_S100000x64_S50000x64_0_0 : S100000x64.Slices ![0, 0] S50000x64
  shapeCasts_S5_S1x5 : S5.ShapeCasts S1x5
  inb_S64x5_S64x5_0_0 : ∀ a, (![0, 0] : Fin 2 → Nat) a + S64x5.size a ≤ S64x5.size a
  h_S64x5 : 0 < S64x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  inb_S10000x5_S10000x5_0_0 : ∀ a, (![0, 0] : Fin 2 → Nat) a + S10000x5.size a ≤ S10000x5.size a
  h_S10000x5 : 0 < S10000x5.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x6_S6x64_S10000x64_1_0_0_1_n_n_wf : DotDims.WF S10000x6 S6x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x5_S10000x5_1_0_0_1_n_n_wf : DotDims.WF S10000x64 S64x5 S10000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x5.size a ≤ S64x5.size a
  hwx4_2 : ∀ i : grid4.Coords, EltTy.bits .f32 = 32 ∨ (Rect.block (s := S64x5) S64x5.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x5.size a ≤ S1x5.size a
  hwx4_3 : ∀ i : grid4.Coords, EltTy.bits .f32 = 32 ∨ (Rect.block (s := S1x5) S1x5.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x5.size a ≤ S50000x5.size a
  hwx4_4 : ∀ i : grid4.Coords, EltTy.bits .f32 = 32 ∨ (Rect.block (s := S50000x5) S10000x5.size (cc4_transform_4 i) (hinb4_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x6_S6x64_S10000x64_1_0_0_1_n_n : DotDims S10000x6 S6x64 S10000x64 where
  lhsContracting := [1]
  rhsContracting := [0]
  lhsNonContracting := [0]
  rhsNonContracting := [1]
  lhsBatch := []
  rhsBatch := []
  wf := dot_S10000x6_S6x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x5_S10000x5_1_0_0_1_n_n : DotDims S10000x64 S64x5 S10000x5 where
  lhsContracting := [1]
  rhsContracting := [0]
  lhsNonContracting := [0]
  rhsNonContracting := [1]
  lhsBatch := []
  rhsBatch := []
  wf := dot_S10000x64_S64x5_S10000x5_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v91) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S64x5.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S1x5.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S10000x5.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x6 : Shape := ⟨2, ![100000, 6]⟩
abbrev S2x3200000 : Shape := ⟨2, ![2, 3200000]⟩
abbrev S3200000 : Shape := ⟨1, ![3200000]⟩
abbrev S6x64 : Shape := ⟨2, ![6, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S100000x64 : Shape := ⟨2, ![100000, 64]⟩
abbrev S3300000x1 : Shape := ⟨2, ![3300000, 1]⟩
abbrev S3300000x64 : Shape := ⟨2, ![3300000, 64]⟩
abbrev S1x64 : Shape := ⟨2, ![1, 64]⟩
abbrev S100000x5 : Shape := ⟨2, ![100000, 5]⟩
abbrev S1x5 : Shape := ⟨2, ![1, 5]⟩
abbrev S50000x5 : Shape := ⟨2, ![50000, 5]⟩

abbrev nBuf : Space → Nat
  | .hbm => 268
  | .vmem => 0
  | .smem => 0
  | _ => 0

abbrev hbmTy0_0 (i : Nat) : BufTy := match i % 128 with
  | 0 => ⟨S100000x6, .f32⟩
  | 1 => ⟨S2x3200000, .i32⟩
  | 2 => ⟨S3200000, .f32⟩
  | 3 => ⟨S6x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x5, .f32⟩
  | 12 => ⟨S5, .f32⟩
  | 13 => ⟨S100000, .i32⟩
  | 14 => ⟨S1x3200000, .i32⟩
  | 15 => ⟨S3200000, .i32⟩
  | 16 => ⟨S3300000, .i32⟩
  | 17 => ⟨S1x3200000, .i32⟩
  | 18 => ⟨S3200000, .i32⟩
  | 19 => ⟨S3300000, .i32⟩
  | 20 => ⟨S_, .f32⟩
  | 21 => ⟨S100000, .f32⟩
  | 22 => ⟨S3300000, .f32⟩
  | 23 => ⟨S100000x64, .f32⟩
  | 24 => ⟨S_, .f32⟩
  | 25 => ⟨S100000, .f32⟩
  | 26 => ⟨S3300000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000, .f32⟩
  | 55 => ⟨S3300000, .f32⟩
  | 56 => ⟨S_, .i32⟩
  | 57 => ⟨S3300000, .i32⟩
  | 58 => ⟨S3300000, .i1⟩
  | 59 => ⟨S_, .i32⟩
  | 60 => ⟨S3300000, .i32⟩
  | 61 => ⟨S3300000, .i32⟩
  | 62 => ⟨S3300000, .i32⟩
  | 63 => ⟨S3300000x1, .i32⟩
  | 64 => ⟨S3300000x64, .f32⟩
  | 65 => ⟨S3300000x1, .f32⟩
  | 66 => ⟨S3300000x64, .f32⟩
  | 67 => ⟨S3300000x64, .f32⟩
  | 68 => ⟨S_, .f32⟩
  | 69 => ⟨S100000x64, .f32⟩
  | 70 => ⟨S3300000x1, .i32⟩
  | 71 => ⟨S100000x64, .f32⟩
  | 72 => ⟨S1x64, .f32⟩
  | 73 => ⟨S100000x64, .f32⟩
  | 74 => ⟨S100000x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S_, .f32⟩
  | 85 => ⟨S100000, .f32⟩
  | 86 => ⟨S3300000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000, .f32⟩
  | 115 => ⟨S3300000, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S3300000x64, .f32⟩
  | 125 => ⟨S3300000x1, .f32⟩
  | 126 => ⟨S3300000x64, .f32⟩
  | 127 => ⟨S3300000x64, .f32⟩
  | _ => ⟨S100000x6, .f32⟩

abbrev hbmTy0_1 (i : Nat) : BufTy := match i % 128 with
  | 0 => ⟨S_, .f32⟩
  | 1 => ⟨S100000x64, .f32⟩
  | 2 => ⟨S3300000x1, .i32⟩
  | 3 => ⟨S100000x64, .f32⟩
  | 4 => ⟨S1x64, .f32⟩
  | 5 => ⟨S100000x64, .f32⟩
  | 6 => ⟨S100000x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S100000x64, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000x64, .f32⟩
  | 57 => ⟨S3300000x1, .f32⟩
  | 58 => ⟨S3300000x64, .f32⟩
  | 59 => ⟨S3300000x64, .f32⟩
  | 60 => ⟨S_, .f32⟩
  | 61 => ⟨S100000x64, .f32⟩
  | 62 => ⟨S3300000x1, .i32⟩
  | 63 => ⟨S100000x64, .f32⟩
  | 64 => ⟨S1x64, .f32⟩
  | 65 => ⟨S100000x64, .f32⟩
  | 66 => ⟨S100000x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S_, .f32⟩
  | 77 => ⟨S100000, .f32⟩
  | 78 => ⟨S3300000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000, .f32⟩
  | 97 => ⟨S3300000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000, .f32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000x64, .f32⟩
  | 117 => ⟨S3300000x1, .f32⟩
  | 118 => ⟨S3300000x64, .f32⟩
  | 119 => ⟨S3300000x64, .f32⟩
  | 120 => ⟨S_, .f32⟩
  | 121 => ⟨S100000x64, .f32⟩
  | 122 => ⟨S3300000x1, .i32⟩
  | 123 => ⟨S100000x64, .f32⟩
  | 124 => ⟨S1x64, .f32⟩
  | 125 => ⟨S100000x64, .f32⟩
  | 126 => ⟨S100000x64, .f32⟩
  | 127 => ⟨S100000x64, .f32⟩
  | _ => ⟨S100000x6, .f32⟩

abbrev hbmTy0_2 (i : Nat) : BufTy := match i % 128 with
  | 0 => ⟨S100000x64, .f32⟩
  | 1 => ⟨S_, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x5, .f32⟩
  | 8 => ⟨S1x5, .f32⟩
  | 9 => ⟨S100000x5, .f32⟩
  | 10 => ⟨S100000x5, .f32⟩
  | 11 => ⟨S50000x5, .f32⟩
  | _ => ⟨S100000x6, .f32⟩

abbrev hbmTy (i : Nat) : BufTy := match i / 128 with
  | 0 => hbmTy0_0 i
  | 1 => hbmTy0_1 i
  | 2 => hbmTy0_2 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_call1_v0 : Ref sig .tc := ⟨.hbm, 93, rfl⟩
abbrev main_call1_v1 : Ref sig .tc := ⟨.hbm, 94, rfl⟩
abbrev main_v62 : Ref sig .tc := ⟨.hbm, 95, rfl⟩
abbrev main_c_14 : Ref sig .tc := ⟨.hbm, 96, rfl⟩
abbrev main_v63 : Ref sig .tc := ⟨.hbm, 97, rfl⟩
abbrev main_v64 : Ref sig .tc := ⟨.hbm, 98, rfl⟩
abbrev main_c_15 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_16 : Ref sig .tc := ⟨.hbm, 106, rfl⟩
abbrev main_v71 : Ref sig .tc := ⟨.hbm, 107, rfl⟩
abbrev main_v72 : Ref sig .tc := ⟨.hbm, 108, rfl⟩
abbrev main_c_17 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_18 : Ref sig .tc := ⟨.hbm, 116, rfl⟩
abbrev main_v79 : Ref sig .tc := ⟨.hbm, 117, rfl⟩
abbrev main_v80 : Ref sig .tc := ⟨.hbm, 118, rfl⟩
abbrev main_c_19 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_21 : Ref sig .tc := ⟨.hbm, 137, rfl⟩
abbrev main_v97 : Ref sig .tc := ⟨.hbm, 138, rfl⟩
abbrev main_v98 : Ref sig .tc := ⟨.hbm, 139, rfl⟩
abbrev main_cst_22 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_23 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_24 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_25 : Ref sig .tc := ⟨.hbm, 152, rfl⟩
abbrev main_call2_v0 : Ref sig .tc := ⟨.hbm, 153, rfl⟩
abbrev main_call2_v1 : Ref sig .tc := ⟨.hbm, 154, rfl⟩
abbrev main_v108 : Ref sig .tc := ⟨.hbm, 155, rfl⟩
abbrev main_c_26 : Ref sig .tc := ⟨.hbm, 156, rfl⟩
abbrev main_v109 : Ref sig .tc := ⟨.hbm, 157, rfl⟩
abbrev main_v110 : Ref sig .tc := ⟨.hbm, 158, rfl⟩
abbrev main_c_27 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_c_28 : Ref sig .tc := ⟨.hbm, 166, rfl⟩
abbrev main_v117 : Ref sig .tc := ⟨.hbm, 167, rfl⟩
abbrev main_v118 : Ref sig .tc := ⟨.hbm, 168, rfl⟩
abbrev main_c_29 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_c_30 : Ref sig .tc := ⟨.hbm, 176, rfl⟩
abbrev main_v125 : Ref sig .tc := ⟨.hbm, 177, rfl⟩
abbrev main_v126 : Ref sig .tc := ⟨.hbm, 178, rfl⟩
abbrev main_c_31 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_32 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_33 : Ref sig .tc := ⟨.hbm, 197, rfl⟩
abbrev main_v143 : Ref sig .tc := ⟨.hbm, 198, rfl⟩
abbrev main_v144 : Ref sig .tc := ⟨.hbm, 199, rfl⟩
abbrev main_cst_34 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_35 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_36 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_37 : Ref sig .tc := ⟨.hbm, 212, rfl⟩
abbrev main_call3_v0 : Ref sig .tc := ⟨.hbm, 213, rfl⟩
abbrev main_call3_v1 : Ref sig .tc := ⟨.hbm, 214, rfl⟩
abbrev main_v154 : Ref sig .tc := ⟨.hbm, 215, rfl⟩
abbrev main_c_38 : Ref sig .tc := ⟨.hbm, 216, rfl⟩
abbrev main_v155 : Ref sig .tc := ⟨.hbm, 217, rfl⟩
abbrev main_v156 : Ref sig .tc := ⟨.hbm, 218, rfl⟩
abbrev main_c_39 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_c_40 : Ref sig .tc := ⟨.hbm, 226, rfl⟩
abbrev main_v163 : Ref sig .tc := ⟨.hbm, 227, rfl⟩
abbrev main_v164 : Ref sig .tc := ⟨.hbm, 228, rfl⟩
abbrev main_c_41 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_c_42 : Ref sig .tc := ⟨.hbm, 236, rfl⟩
abbrev main_v171 : Ref sig .tc := ⟨.hbm, 237, rfl⟩
abbrev main_v172 : Ref sig .tc := ⟨.hbm, 238, rfl⟩
abbrev main_c_43 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_cst_44 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_cst_45 : Ref sig .tc := ⟨.hbm, 257, rfl⟩
abbrev main_v189 : Ref sig .tc := ⟨.hbm, 258, rfl⟩
abbrev main_v190 : Ref sig .tc := ⟨.hbm, 259, rfl⟩
abbrev main_cst_46 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  slices_S100000x5_S50000x5_0_0 : S100000x5.Slices ![0, 0] S50000x5
  dot_S100000x6_S6x64_S100000x64_1_0_0_1_n_n_wf : DotDims.WF S100000x6 S6x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x5_S100000x5_1_0_0_1_n_n_wf : DotDims.WF S100000x64 S64x5 S100000x5 [1] [0] [0] [1] [] []

variable [Facts₀]

def dot_S100000x6_S6x64_S100000x64_1_0_0_1_n_n : DotDims S100000x6 S6x64 S100000x64 where
  lhsContracting := [1]
  rhsContracting := [0]
  lhsNonContracting := [0]
  rhsNonContracting := [1]
  lhsBatch := []
  rhsBatch := []
  wf := dot_S100000x6_S6x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x5_S100000x5_1_0_0_1_n_n : DotDims S100000x64 S64x5 S100000x5 where
  lhsContracting := [1]
  rhsContracting := [0]
  lhsNonContracting := [0]
  rhsNonContracting := [1]
  lhsBatch := []
  rhsBatch := []
  wf := dot_S100000x64_S64x5_S100000x5_1_0_0_1_n_n_wf

class Facts : Prop extends Facts₀ where

variable [Facts]
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.Dense.lean ====
import proofs.«145405_j13125420057138_1_alg».proof.Proof.LibPlainDot
import Idealize.ShloMosaic.Lib.ValueIdx
import Idealize.ShloMosaic.Lib.IdealHost
import Idealize.ShloMosaic.Lib.Pipeline.Value
import Idealize.ShloMosaic.PureOps.Ideal.Laws

/-!
# The dense stages of a graph-convolution stack, entry by entry

Between two neighbourhood aggregations every layer applies the same dense step to each row of its input:
add a bias along the row, apply the logistic function entry by entry, and multiply by a weight matrix. Over the
extended reals these are the functions below, written at an entry `(p, q)`; the same functions are then recognised
in the host operations that a whole-array program spells them with (a `dot_general`, the quotient
`1 / (1 + exp (-x))`, broadcasts along the rows, a leading-rows slice).
-/

noncomputable section

namespace Cert.Dense

open Idealize.ShloMosaic Idealize.ShloMosaic.ValueIdx
open scoped BigOperators

variable {M K N : Nat}

/-- The product of a matrix with `M` rows by a `K × N` matrix: entry `(p, q)` is `∑ k, x (p, k) · w (k, q)`. -/
def mm (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

/-- The activation of a layer: the logistic function of the entry plus the bias of its column. -/
def act (x : FVec Ideal ⟨2, ![M, K]⟩ .f32) (b : FVec Ideal ⟨1, ![K]⟩ .f32) : FVec Ideal ⟨2, ![M, K]⟩ .f32 :=
  fun i => Ideal.logistic (x i + b (ix1 (i 1)))

/-- A hidden layer's dense step: the activation, then the product with the next layer's weights. -/
def layer (x : FVec Ideal ⟨2, ![M, K]⟩ .f32) (b : FVec Ideal ⟨1, ![K]⟩ .f32) (w : FVec Ideal ⟨2, ![K, N]⟩ .f32) :
    FVec Ideal ⟨2, ![M, N]⟩ .f32 := mm (act x b) w

/-- The output head: the dense step followed by the head's own bias along the rows. -/
def head (x : FVec Ideal ⟨2, ![M, K]⟩ .f32) (b : FVec Ideal ⟨1, ![K]⟩ .f32) (w : FVec Ideal ⟨2, ![K, N]⟩ .f32)
    (bl : FVec Ideal ⟨1, ![N]⟩ .f32) : FVec Ideal ⟨2, ![M, N]⟩ .f32 :=
  fun i => mm (act x b) w i + bl (ix1 (i 1))

/-- The first `M'` rows of a matrix. -/
def rows (M' : Nat) (h : M' ≤ M) (x : FVec Ideal ⟨2, ![M, K]⟩ .f32) : FVec Ideal ⟨2, ![M', K]⟩ .f32 :=
  fun i => x (ix2 ⟨(i 0).val, lt_of_lt_of_le (i 0).isLt h⟩ (i 1))

/-! ## The host's spellings -/

/-- The host's `dot_general` with rows-by-columns dimension numbers is the matrix product. -/
theorem dotGeneral_eq_mm (d : DotDims ⟨2, ![M, K]⟩ ⟨2, ![K, N]⟩ ⟨2, ![M, N]⟩) (h : LibPlainDot.Plain d)
    (prec : Option ContractPrecision) (x : FVec Ideal ⟨2, ![M, K]⟩ .f32) (w : FVec Ideal ⟨2, ![K, N]⟩ .f32) :
    Host.dotGeneral d prec x w = mm x w := by
  funext i
  rw [eq_ix2 i]
  exact LibPlainDot.dotGeneral_apply d h prec .single x w (i 0) (i 1)

/-- A vector made a one-row matrix and the row repeated down `M` rows, read at an entry: the vector at the column. -/
theorem rowBcast_apply (h1 : (⟨1, ![K]⟩ : Shape).BroadcastsInDim ⟨2, ![1, K]⟩ ![1])
    (h2 : (⟨2, ![1, K]⟩ : Shape).BroadcastsInDim ⟨2, ![M, K]⟩ ![0, 1]) (b : FVec Ideal ⟨1, ![K]⟩ .f32)
    (i : (⟨2, ![M, K]⟩ : Shape).Idx) :
    broadcastInDim ⟨2, ![M, K]⟩ ![0, 1] h2 (broadcastInDim ⟨2, ![1, K]⟩ ![1] h1 b) i = b (ix1 (i 1)) := by
  have hK : (i 1).val < K := (i 1).isLt
  have hcol : (i 1).val = if K = 1 then 0 else (i 1).val := by
    by_cases hK1 : K = 1
    · rw [if_pos hK1]; omega
    · rw [if_neg hK1]
  refine (broadcastInDim_apply _ h2 _ i (ix2 0 (i 1)) (fun a => ?_)).trans
    (broadcastInDim_apply _ h1 b (ix2 0 (i 1)) (ix1 (i 1)) (fun a => ?_))
  · match a with
    | ⟨0, _⟩ => rfl
    | ⟨1, _⟩ => exact hcol
  · match a with
    | ⟨0, _⟩ => exact hcol

/-- The quotient `1 / (1 + exp (-(x + b)))` with the bias repeated down the rows is the activation. -/
theorem logistic_spelt (h1 : (⟨1, ![K]⟩ : Shape).BroadcastsInDim ⟨2, ![1, K]⟩ ![1])
    (h2 : (⟨2, ![1, K]⟩ : Shape).BroadcastsInDim ⟨2, ![M, K]⟩ ![0, 1])
    (hc : (⟨0, ![]⟩ : Shape).BroadcastsInDim ⟨2, ![M, K]⟩ ![])
    (x : FVec Ideal ⟨2, ![M, K]⟩ .f32) (b : FVec Ideal ⟨1, ![K]⟩ .f32) :
    Host.divf (broadcastInDim ⟨2, ![M, K]⟩ ![] hc (constant (F := Ideal) ⟨0, ![]⟩ .f32 0x3F800000#32))
      (addf (broadcastInDim ⟨2, ![M, K]⟩ ![] hc (constant (F := Ideal) ⟨0, ![]⟩ .f32 0x3F800000#32))
        (Host.exp (Host.negf (addf x (broadcastInDim ⟨2, ![M, K]⟩ ![0, 1] h2 (broadcastInDim ⟨2, ![1, K]⟩ ![1] h1 b))))))
      = act x b := by
  funext i
  have e1 : broadcastInDim ⟨2, ![M, K]⟩ ![] hc (constant (F := Ideal) ⟨0, ![]⟩ .f32 0x3F800000#32) i = (1 : EReal) := by
    rw [broadcastInDim_scalar_apply]; exact Ideal.ofBits_one_f32
  show Ideal.div (broadcastInDim ⟨2, ![M, K]⟩ ![] hc (constant (F := Ideal) ⟨0, ![]⟩ .f32 0x3F800000#32) i)
      (broadcastInDim ⟨2, ![M, K]⟩ ![] hc (constant (F := Ideal) ⟨0, ![]⟩ .f32 0x3F800000#32) i
        + Ideal.exp (-(x i + broadcastInDim ⟨2, ![M, K]⟩ ![0, 1] h2 (broadcastInDim ⟨2, ![1, K]⟩ ![1] h1 b) i))) = _
  rw [e1, rowBcast_apply]
  rfl

/-- A slice of the leading rows is the leading rows. -/
theorem slice_rows {M' : Nat} (h : M' ≤ M) (hs : (⟨2, ![M, K]⟩ : Shape).Slices ![0, 0] ⟨2, ![M', K]⟩)
    (x : FVec Ideal ⟨2, ![M, K]⟩ .f32) : extractStridedSlice ⟨2, ![M', K]⟩ ![0, 0] x hs = rows M' h x := by
  funext j
  refine extractStridedSlice_apply _ x hs j _ fun a => ?_
  match a with
  | ⟨0, _⟩ => show (j 0).val = 0 + (j 0).val; omega
  | ⟨1, _⟩ => show (j 1).val = 0 + (j 1).val; omega

/-- The head of the leading rows is the leading rows of the dense step with the head's bias repeated down the rows
    and added: an entry of the product depends on its own row only. -/
theorem head_of_rows {M' : Nat} (h : M' ≤ M) (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ .f32) (b : FVec Ideal ⟨1, ![K]⟩ .f32)
    (w : FVec Ideal ⟨2, ![K, N]⟩ .f32) (bl : FVec Ideal ⟨1, ![N]⟩ .f32) :
    rows M' h (addf (mm (act x b) w) (broadcastInDim ⟨2, ![M, N]⟩ ![0, 1] h2 (broadcastInDim ⟨2, ![1, N]⟩ ![1] h1 bl)))
      = head (rows M' h x) b w bl := by
  funext j
  show mm (act x b) w _ + broadcastInDim ⟨2, ![M, N]⟩ ![0, 1] h2 (broadcastInDim ⟨2, ![1, N]⟩ ![1] h1 bl) _ = _
  rw [rowBcast_apply]
  rfl

/-- A vector reshaped to a one-row matrix, read along its row, is the vector. -/
theorem reshape_row (h : (⟨1, ![K]⟩ : Shape).ShapeCasts ⟨2, ![1, K]⟩) (b : FVec Ideal ⟨1, ![K]⟩ .f32) :
    (fun i : (⟨1, ![K]⟩ : Shape).Idx => shapeCast ⟨2, ![1, K]⟩ b h (ix2 0 (i 0))) = b := by
  funext i
  refine shapeCast_apply b h (ix2 0 (i 0)) i ?_
  rw [Shape.rowMajor_val_one, Shape.rowMajor_val_two]
  show (i 0).val = 0 * K + (i 0).val
  omega

end Cert.Dense

end
-- ==== Proof.Layer0.lean ====
import proofs.«145405_j13125420057138_1_alg».proof.Proof.Gen.KernelIdeal.Frame
import proofs.«145405_j13125420057138_1_alg».proof.Proof.Dense
import Idealize.ShloMosaic.Lib.Pipeline.Value
import Idealize.ShloMosaic.Lib.ValueIdx

/-!
# The input layer's linear transform, as the row-tiled kernel computes it

The kernel walks the 100000 rows of the vertex features in ten tiles of 10000 and multiplies each tile by the whole
6 × 64 weight matrix. An entry of a tile's product depends on its own row only, so the ten tiles written back side by
side are the product of the whole arrays.
-/

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem zero_offsets : (![0, 0] : Fin 2 → Nat) = fun _ => 0 := funext fun a => by fin_cases a <;> rfl

/-- The tile's payload at an entry: the row of the tile against the column of the weights. -/
theorem pay_apply (x0 : Vec Ideal S10000x6 .f32) (x1 : Vec Ideal S6x64 .f32) (p : Fin 10000) (q : Fin 64) :
    k0_pay1 (F := Ideal) x0 x1 (ix2 p q) = ∑ k : Fin 6, x0 (ix2 p k) * x1 (ix2 k q) := by
  unfold k0_pay1
  exact Cert.LibPlainDot.matmul_zero_apply dot_S10000x6_S6x64_S10000x64_1_0_0_1_n_n ⟨rfl, rfl, rfl, rfl, rfl, rfl⟩
    none _ _ p q

/-- The printed index maps over the ten grid points: the input tile and the output tile move together down the rows,
    the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of the whole arrays. -/
abbrev G (X : FVec Ideal S100000x6 .f32) (W : FVec Ideal S6x64 .f32) : FVec Ideal S100000x64 .f32 :=
  Cert.Dense.mm X W

/-- The tile's payload over the tile's blocks of whole arrays is the product of the whole arrays at the tile's place. -/
theorem tile_eq (X : FVec Ideal S100000x6 .f32) (W : FVec Ideal S6x64 .f32) (t : Fin cfg0.N) (j : S10000x64.Idx) :
    k0_pay1 (F := Ideal) (((cfg0.win 0).blk t).view.read (Elt Ideal) X) (((cfg0.win 1).blk t).view.read (Elt Ideal) W) j
      = G X W (((cfg0.win 2).blk t).view.emb j) := by
  obtain ⟨p, q, rfl⟩ : ∃ (p : Fin 10000) (q : Fin 64), j = ix2 p q := ⟨j 0, j 1, eq_ix2 j⟩
  obtain ⟨e0, e1, e2, e3, e4, e5⟩ := idx_facts t
  refine (pay_apply _ _ p q).trans ?_
  show _ = Cert.Dense.mm X W (((cfg0.win 2).blk t).view.emb (ix2 p q))
  unfold Cert.Dense.mm
  refine Finset.sum_congr rfl fun k _ => ?_
  have hp := p.isLt
  have hq := q.isLt
  have hk := k.isLt
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 6 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 6 + 1 * k.val = k.val; omega
    | ⟨1, _⟩ => show win0_1.index t (1 : Fin 2) * 64 + 1 * q.val = win0_2.index t (1 : Fin 2) * 64 + 1 * q.val; omega
  show X (((cfg0.win 0).blk t).view.emb (ix2 p k)) * W (((cfg0.win 1).blk t).view.emb (ix2 k q)) = _
  rw [h0, h1]
  rfl

variable (V : (c : Dev nD) → (b : Ref sig .tc) → Buf (Elt Ideal) ((c : Thread nD τ).loc b))

/-- What grid point `t` writes back is tile `t` of the product of the arrays the region finds. -/
theorem flushed_eq (c : Dev nD) (t : Fin cfg0.N) :
    (dat0 V c).flushed 2 t = ((cfg0.win 2).blk t).view.read (Elt Ideal) (G (V c main_arg0) (V c main_arg3)) := by
  show (cfg0.win 2).cut (grid0.coords t) ((dat0 V c).after 2 t) = _
  rw [after0_2]
  unfold out0_2
  rw [View.canon_unit_zero zero_offsets]
  simp only [View.ld_unit_zero (S := S10000x6) zero_offsets, View.ld_unit_zero (S := S6x64) zero_offsets]
  funext j
  exact tile_eq (V c main_arg0) (V c main_arg3) t j

/-- An index of the output array is in tile `t` iff each coordinate is in the tile's range. -/
theorem mem_tile (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- Row `r` lies in tile `r / 10000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5⟩ := idx_facts t
  have e4' : win0_2.index t (0 : Fin 2) = (i 0).val / 10000 := e4
  refine ⟨t, flush0_2 t, ?_⟩
  rw [mem_tile]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array when the region ends: the product of the arrays the region found. -/
theorem final (c : Dev nD) : (dat0 V c).arrAt 2 cfg0.N = G (V c main_arg0) (V c main_arg3) :=
  (dat0 V c).arrAt_eq_of_cover 2 (G (V c main_arg0) (V c main_arg3)) (fun t _ => flushed_eq V c t) covered

end Cert.KernelIdeal.Layer0

end
-- ==== Proof.Layer1.lean ====
import proofs.«145405_j13125420057138_1_alg».proof.Proof.Gen.KernelIdeal.Frame
import proofs.«145405_j13125420057138_1_alg».proof.Proof.Dense
import Idealize.ShloMosaic.Lib.Pipeline.Value
import Idealize.ShloMosaic.Lib.ValueIdx

/-!
# Hidden layer 1's dense step, as the row-tiled kernel computes it

The kernel walks the 100000 rows in ten tiles of 10000. At a tile it adds the bias row to every row of the tile,
applies the logistic function, and multiplies by the whole 64 × 64 weight matrix; an entry of the tile's product
depends on its own row of the input only, so the ten tiles written back side by side are the dense step of the whole
array.
-/

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem zero_offsets : (![0, 0] : Fin 2 → Nat) = fun _ => 0 := funext fun a => by fin_cases a <;> rfl

/-- The tile's payload at an entry: the logistic of the input entry plus the bias of its column, summed against the
    weight column. -/
theorem pay_apply (x0 : Vec Ideal S10000x64 .f32) (x1 : Vec Ideal S1x64 .f32) (x2 : Vec Ideal S64x64 .f32)
    (p : Fin 10000) (q : Fin 64) :
    k1_pay1 (F := Ideal) x0 x1 x2 (ix2 p q)
      = ∑ k : Fin 64, Ideal.logistic (x0 (ix2 p k) + x1 (ix2 0 k)) * x2 (ix2 k q) := by
  unfold k1_pay1
  refine (Cert.LibPlainDot.matmul_zero_apply dot_S10000x64_S64x64_S10000x64_1_0_0_1_n_n ⟨rfl, rfl, rfl, rfl, rfl, rfl⟩
    none _ _ p q).trans ?_
  refine Finset.sum_congr rfl fun k _ => ?_
  have eb : broadcastTo S10000x64 x1 broadcasts_S1x64_S10000x64 (ix2 p k) = x1 (ix2 0 k) :=
    broadcastTo_apply x1 _ (ix2 p k) (ix2 0 k) (fun a => by
      match a with
      | ⟨0, _⟩ => rfl
      | ⟨1, _⟩ => rfl)
  show Ideal.logistic (shapeCast S10000x64 x0 shapeCasts_S10000x64_S10000x64 (ix2 p k)
      + broadcastTo S10000x64 (shapeCast S1x64 x1 shapeCasts_S1x64_S1x64) broadcasts_S1x64_S10000x64 (ix2 p k)) * x2 (ix2 k q) = _
  rw [shapeCast_self, shapeCast_self, eb]

/-- The printed index maps over the ten grid points: the input tile and the output tile move together down the rows,
    the bias and the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The dense step of whole arrays; the bias is the one row of a `1 × 64` array. -/
abbrev G (X : FVec Ideal S100000x64 .f32) (B : FVec Ideal S1x64 .f32) (W : FVec Ideal S64x64 .f32) :
    FVec Ideal S100000x64 .f32 :=
  Cert.Dense.layer X (fun i => B (ix2 0 (i 0))) W

/-- The tile's payload over the tile's blocks of whole arrays is the dense step of the whole arrays, read at the
    tile's place. -/
theorem tile_eq (X : FVec Ideal S100000x64 .f32) (B : FVec Ideal S1x64 .f32) (W : FVec Ideal S64x64 .f32)
    (t : Fin cfg1.N) (j : S10000x64.Idx) :
    k1_pay1 (F := Ideal) (((cfg1.win 0).blk t).view.read (Elt Ideal) X) (((cfg1.win 1).blk t).view.read (Elt Ideal) B)
        (((cfg1.win 2).blk t).view.read (Elt Ideal) W) j
      = G X B W (((cfg1.win 3).blk t).view.emb j) := by
  obtain ⟨p, q, rfl⟩ : ∃ (p : Fin 10000) (q : Fin 64), j = ix2 p q := ⟨j 0, j 1, eq_ix2 j⟩
  obtain ⟨e0, e1, e2, e3, e4, e5, e6, e7⟩ := idx_facts t
  refine (pay_apply _ _ _ p q).trans ?_
  show _ = Cert.Dense.mm (Cert.Dense.act X (fun i => B (ix2 0 (i 0)))) W (((cfg1.win 3).blk t).view.emb (ix2 p q))
  unfold Cert.Dense.mm
  refine Finset.sum_congr rfl fun k _ => ?_
  have hp := p.isLt
  have hq := q.isLt
  have hk := k.isLt
  have h0 : ((cfg1.win 0).blk t).view.emb (ix2 p k) = ix2 ((((cfg1.win 3).blk t).view.emb (ix2 p q)) 0) k := by
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  have h1 : ((cfg1.win 1).blk t).view.emb (ix2 0 k) = ix2 0 k := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (ix2 k q) = ix2 k ((((cfg1.win 3).blk t).view.emb (ix2 p q)) 1) := by
    funext a; apply Fin.ext
    match a with
    | ⟨0, _⟩ => show win1_2.index t (0 : Fin 2) * 64 + 1 * k.val = k.val; omega
    | ⟨1, _⟩ => show win1_2.index t (1 : Fin 2) * 64 + 1 * q.val = win1_3.index t (1 : Fin 2) * 64 + 1 * q.val; omega
  show Ideal.logistic (X (((cfg1.win 0).blk t).view.emb (ix2 p k)) + B (((cfg1.win 1).blk t).view.emb (ix2 0 k)))
      * W (((cfg1.win 2).blk t).view.emb (ix2 k q)) = _
  rw [h0, h1, h2]
  rfl

variable (V : (c : Dev nD) → (b : Ref sig .tc) → Buf (Elt Ideal) ((c : Thread nD τ).loc b))

/-- What grid point `t` writes back is tile `t` of the dense step of the arrays the region finds. -/
theorem flushed_eq (c : Dev nD) (t : Fin cfg1.N) :
    (dat1 V c).flushed 3 t
      = ((cfg1.win 3).blk t).view.read (Elt Ideal) (G (V c main_v45) (V c main_v46) (V c main_arg5)) := by
  show (cfg1.win 3).cut (grid1.coords t) ((dat1 V c).after 3 t) = _
  rw [after1_3]
  unfold out1_3
  rw [View.canon_unit_zero zero_offsets]
  simp only [View.ld_unit_zero (S := S10000x64) zero_offsets, View.ld_unit_zero (S := S1x64) zero_offsets,
    View.ld_unit_zero (S := S64x64) zero_offsets]
  funext j
  exact tile_eq (V c main_v45) (V c main_v46) (V c main_arg5) t j

/-- An index of the output array is in tile `t` iff each coordinate is in the tile's range. -/
theorem mem_tile (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v47).slice (win1_3.rect t)).set ↔ _
  rw [View.set_slice_whole, Rect.mem_set_unit]
  exact Iff.rfl

/-- Row `r` lies in tile `r / 10000`. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨e0, e1, e2, e3, e4, e5, e6, e7⟩ := idx_facts t
  have e6' : win1_3.index t (0 : Fin 2) = (i 0).val / 10000 := e6
  refine ⟨t, flush1_3 t, ?_⟩
  rw [mem_tile]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array when the region ends: the dense step of the arrays the region found. -/
theorem final (c : Dev nD) :
    (dat1 V c).arrAt 3 cfg1.N = G (V c main_v45) (V c main_v46) (V c main_arg5) :=
  (dat1 V c).arrAt_eq_of_cover 3 (G (V c main_v45) (V c main_v46) (V c main_arg5)) (fun t _ => flushed_eq V c t) covered

end Cert.KernelIdeal.Layer1

end
-- ==== Proof.Layer2.lean ====
import proofs.«145405_j13125420057138_1_alg».proof.Proof.Gen.KernelIdeal.Frame
import proofs.«145405_j13125420057138_1_alg».proof.Proof.Dense
import Idealize.ShloMosaic.Lib.Pipeline.Value
import Idealize.ShloMosaic.Lib.ValueIdx

/-!
# Hidden layer 2's dense step, as the row-tiled kernel computes it

The kernel walks the 100000 rows in ten tiles of 10000. At a tile it adds the bias row to every row of the tile,
applies the logistic function, and multiplies by the whole 64 × 64 weight matrix; an entry of the tile's product
depends on its own row of the input only, so the ten tiles written back side by side are the dense step of the whole
array.
-/

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem zero_offsets : (![0, 0] : Fin 2 → Nat) = fun _ => 0 := funext fun a => by fin_cases a <;> rfl

/-- The tile's payload at an entry: the logistic of the input entry plus the bias of its column, summed against the
    weight column. -/
theorem pay_apply (x0 : Vec Ideal S10000x64 .f32) (x1 : Vec Ideal S1x64 .f32) (x2 : Vec Ideal S64x64 .f32)
    (p : Fin 10000) (q : Fin 64) :
    k2_pay1 (F := Ideal) x0 x1 x2 (ix2 p q)
      = ∑ k : Fin 64, Ideal.logistic (x0 (ix2 p k) + x1 (ix2 0 k)) * x2 (ix2 k q) := by
  unfold k2_pay1
  refine (Cert.LibPlainDot.matmul_zero_apply dot_S10000x64_S64x64_S10000x64_1_0_0_1_n_n ⟨rfl, rfl, rfl, rfl, rfl, rfl⟩
    none _ _ p q).trans ?_
  refine Finset.sum_congr rfl fun k _ => ?_
  have eb : broadcastTo S10000x64 x1 broadcasts_S1x64_S10000x64 (ix2 p k) = x1 (ix2 0 k) :=
    broadcastTo_apply x1 _ (ix2 p k) (ix2 0 k) (fun a => by
      match a with
      | ⟨0, _⟩ => rfl
      | ⟨1, _⟩ => rfl)
  show Ideal.logistic (shapeCast S10000x64 x0 shapeCasts_S10000x64_S10000x64 (ix2 p k)
      + broadcastTo S10000x64 (shapeCast S1x64 x1 shapeCasts_S1x64_S1x64) broadcasts_S1x64_S10000x64 (ix2 p k)) * x2 (ix2 k q) = _
  rw [shapeCast_self, shapeCast_self, eb]

/-- The printed index maps over the ten grid points: the input tile and the output tile move together down the rows,
    the bias and the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The dense step of whole arrays; the bias is the one row of a `1 × 64` array. -/
abbrev G (X : FVec Ideal S100000x64 .f32) (B : FVec Ideal S1x64 .f32) (W : FVec Ideal S64x64 .f32) :
    FVec Ideal S100000x64 .f32 :=
  Cert.Dense.layer X (fun i => B (ix2 0 (i 0))) W

/-- The tile's payload over the tile's blocks of whole arrays is the dense step of the whole arrays, read at the
    tile's place. -/
theorem tile_eq (X : FVec Ideal S100000x64 .f32) (B : FVec Ideal S1x64 .f32) (W : FVec Ideal S64x64 .f32)
    (t : Fin cfg2.N) (j : S10000x64.Idx) :
    k2_pay1 (F := Ideal) (((cfg2.win 0).blk t).view.read (Elt Ideal) X) (((cfg2.win 1).blk t).view.read (Elt Ideal) B)
        (((cfg2.win 2).blk t).view.read (Elt Ideal) W) j
      = G X B W (((cfg2.win 3).blk t).view.emb j) := by
  obtain ⟨p, q, rfl⟩ : ∃ (p : Fin 10000) (q : Fin 64), j = ix2 p q := ⟨j 0, j 1, eq_ix2 j⟩
  obtain ⟨e0, e1, e2, e3, e4, e5, e6, e7⟩ := idx_facts t
  refine (pay_apply _ _ _ p q).trans ?_
  show _ = Cert.Dense.mm (Cert.Dense.act X (fun i => B (ix2 0 (i 0)))) W (((cfg2.win 3).blk t).view.emb (ix2 p q))
  unfold Cert.Dense.mm
  refine Finset.sum_congr rfl fun k _ => ?_
  have hp := p.isLt
  have hq := q.isLt
  have hk := k.isLt
  have h0 : ((cfg2.win 0).blk t).view.emb (ix2 p k) = ix2 ((((cfg2.win 3).blk t).view.emb (ix2 p q)) 0) k := by
    funext a; apply Fin.ext
    match a with
    | ⟨0, _⟩ => show win2_0.index t (0 : Fin 2) * 10000 + 1 * p.val = win2_3.index t (0 : Fin 2) * 10000 + 1 * p.val; omega
    | ⟨1, _⟩ => show win2_0.index t (1 : Fin 2) * 64 + 1 * k.val = k.val; omega
  have h1 : ((cfg2.win 1).blk t).view.emb (ix2 0 k) = ix2 0 k := by
    funext a; apply Fin.ext
    match a with
    | ⟨0, _⟩ => show win2_1.index t (0 : Fin 2) * 1 + 1 * 0 = 0; omega
    | ⟨1, _⟩ => show win2_1.index t (1 : Fin 2) * 64 + 1 * k.val = k.val; omega
  have h2 : ((cfg2.win 2).blk t).view.emb (ix2 k q) = ix2 k ((((cfg2.win 3).blk t).view.emb (ix2 p q)) 1) := by
    funext a; apply Fin.ext
    match a with
    | ⟨0, _⟩ => show win2_2.index t (0 : Fin 2) * 64 + 1 * k.val = k.val; omega
    | ⟨1, _⟩ => show win2_2.index t (1 : Fin 2) * 64 + 1 * q.val = win2_3.index t (1 : Fin 2) * 64 + 1 * q.val; omega
  show Ideal.logistic (X (((cfg2.win 0).blk t).view.emb (ix2 p k)) + B (((cfg2.win 1).blk t).view.emb (ix2 0 k)))
      * W (((cfg2.win 2).blk t).view.emb (ix2 k q)) = _
  rw [h0, h1, h2]
  rfl

variable (V : (c : Dev nD) → (b : Ref sig .tc) → Buf (Elt Ideal) ((c : Thread nD τ).loc b))

/-- What grid point `t` writes back is tile `t` of the dense step of the arrays the region finds. -/
theorem flushed_eq (c : Dev nD) (t : Fin cfg2.N) :
    (dat2 V c).flushed 3 t
      = ((cfg2.win 3).blk t).view.read (Elt Ideal) (G (V c main_v60) (V c main_v61) (V c main_arg7)) := by
  show (cfg2.win 3).cut (grid2.coords t) ((dat2 V c).after 3 t) = _
  rw [after2_3]
  unfold out2_3
  rw [View.canon_unit_zero zero_offsets]
  simp only [View.ld_unit_zero (S := S10000x64) zero_offsets, View.ld_unit_zero (S := S1x64) zero_offsets,
    View.ld_unit_zero (S := S64x64) zero_offsets]
  funext j
  exact tile_eq (V c main_v60) (V c main_v61) (V c main_arg7) t j

/-- An index of the output array is in tile `t` iff each coordinate is in the tile's range. -/
theorem mem_tile (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v62).slice (win2_3.rect t)).set ↔ _
  rw [View.set_slice_whole, Rect.mem_set_unit]
  exact Iff.rfl

/-- Row `r` lies in tile `r / 10000`. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨e0, e1, e2, e3, e4, e5, e6, e7⟩ := idx_facts t
  have e6' : win2_3.index t (0 : Fin 2) = (i 0).val / 10000 := e6
  refine ⟨t, flush2_3 t, ?_⟩
  rw [mem_tile]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The output array when the region ends: the dense step of the arrays the region found. -/
theorem final (c : Dev nD) :
    (dat2 V c).arrAt 3 cfg2.N = G (V c main_v60) (V c main_v61) (V c main_arg7) :=
  (dat2 V c).arrAt_eq_of_cover 3 (G (V c main_v60) (V c main_v61) (V c main_arg7)) (fun t _ => flushed_eq V c t) covered

end Cert.KernelIdeal.Layer2

end
-- ==== Proof.Layer3.lean ====
import proofs.«145405_j13125420057138_1_alg».proof.Proof.Gen.KernelIdeal.Frame
import proofs.«145405_j13125420057138_1_alg».proof.Proof.Dense
import Idealize.ShloMosaic.Lib.Pipeline.Value
import Idealize.ShloMosaic.Lib.ValueIdx

/-!
# Hidden layer 3's dense step, as the row-tiled kernel computes it

The kernel walks the 100000 rows in ten tiles of 10000. At a tile it adds the bias row to every row of the tile,
applies the logistic function, and multiplies by the whole 64 × 64 weight matrix; an entry of the tile's product
depends on its own row of the input only, so the ten tiles written back side by side are the dense step of the whole
array.
-/

set_option maxRecDepth 16384

noncomputable section

namespace Cert.KernelIdeal.Layer3

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem zero_offsets : (![0, 0] : Fin 2 → Nat) = fun _ => 0 := funext fun a => by fin_cases a <;> rfl

/-- The tile's payload at an entry: the logistic of the input entry plus the bias of its column, summed against the
    weight column. -/
theorem pay_apply (x0 : Vec Ideal S10000x64 .f32) (x1 : Vec Ideal S1x64 .f32) (x2 : Vec Ideal S64x64 .f32)
    (p : Fin 10000) (q : Fin 64) :
    k3_pay1 (F := Ideal) x0 x1 x2 (ix2 p q)
      = ∑ k : Fin 64, Ideal.logistic (x0 (ix2 p k) + x1 (ix2 0 k)) * x2 (ix2 k q) := by
  unfold k3_pay1
  refine (Cert.LibPlainDot.matmul_zero_apply dot_S10000x64_S64x64_S10000x64_1_0_0_1_n_n ⟨rfl, rfl, rfl, rfl, rfl, rfl⟩
    none _ _ p q).trans ?_
  refine Finset.sum_congr rfl fun k _ => ?_
  have eb : broadcastTo S10000x64 x1 broadcasts_S1x64_S10000x64 (ix2 p k) = x1 (ix2 0 k) :=
    broadcastTo_apply x1 _ (ix2 p k) (ix2 0 k) (fun a => by
      match a with
      | ⟨0, _⟩ => rfl
      | ⟨1, _⟩ => rfl)
  show Ideal.logistic (shapeCast S10000x64 x0 shapeCasts_S10000x64_S10000x64 (ix2 p k)
      + broadcastTo S10000x64 (shapeCast S1x64 x1 shapeCasts_S1x64_S1x64) broadcasts_S1x64_S10000x64 (ix2 p k)) * x2 (ix2 k q) = _
  rw [shapeCast_self, shapeCast_self, eb]

/-- The printed index maps over the ten grid points: the input tile and the output tile move together down the rows,
    the bias and the weights stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The dense step of whole arrays; the bias is the one row of a `1 × 64` array. -/
abbrev G (X : FVec Ideal S100000x64 .f32) (B : FVec Ideal S1x64 .f32) (W : FVec Ideal S64x64 .f32) :
    FVec Ideal S100000x64 .f32 :=
  Cert.Dense.layer X (fun i => B (ix2 0 (i 0))) W

/-- The tile's payload over the tile's blocks of whole arrays is the dense step of the whole arrays, read at the
    tile's place. -/
theorem tile_eq (X : FVec Ideal S100000x64 .f32) (B : FVec Ideal S1x64 .f32) (W : FVec Ideal S64x64 .f32)
    (t : Fin cfg3.N) (j : S10000x64.Idx) :
    k3_pay1 (F := Ideal) (((cfg3.win 0).blk t).view.read (Elt Ideal) X) (((cfg3.win 1).blk t).view.read (Elt Ideal) B)
        (((cfg3.win 2).blk t).view.read (Elt Ideal) W) j
      = G X B W (((cfg3.win 3).blk t).view.emb j) := by
  obtain ⟨p, q, rfl⟩ : ∃ (p : Fin 10000) (q : Fin 64), j = ix2 p q := ⟨j 0, j 1, eq_ix2 j⟩
  obtain ⟨e0, e1, e2, e3, e4, e5, e6, e7⟩ := idx_facts t
  refine (pay_apply _ _ _ p q).trans ?_
  show _ = Cert.Dense.mm (Cert.Dense.act X (fun i => B (ix2 0 (i 0)))) W (((cfg3.win 3).blk t).view.emb (ix2 p q))
  unfold Cert.Dense.mm
  refine Finset.sum_congr rfl fun k _ => ?_
  have hp := p.isLt
  have hq := q.isLt
  have hk := k.isLt
  have h0 : ((cfg3.win 0).blk t).view.emb (ix2 p k) = ix2 ((((cfg3.win 3).blk t).view.emb (ix2 p q)) 0) k := by
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 64 + 1 * k.val = k.val; omega
  have h1 : ((cfg3.win 1).blk t).view.emb (ix2 0 k) = ix2 0 k := by
    funext a; apply Fin.ext
    match a with
    | ⟨0, _⟩ => show win3_1.index t (0 : Fin 2) * 1 + 1 * 0 = 0; omega
    | ⟨1, _⟩ => show win3_1.index t (1 : Fin 2) * 64 + 1 * k.val = k.val; omega
  have h2 : ((cfg3.win 2).blk t).view.emb (ix2 k q) = ix2 k ((((cfg3.win 3).blk t).view.emb (ix2 p q)) 1) := by
    funext a; apply Fin.ext
    match a with
    | ⟨0, _⟩ => show win3_2.index t (0 : Fin 2) * 64 + 1 * k.val = k.val; omega
    | ⟨1, _⟩ => show win3_2.index t (1 : Fin 2) * 64 + 1 * q.val = win3_3.index t (1 : Fin 2) * 64 + 1 * q.val; omega
  show Ideal.logistic (X (((cfg3.win 0).blk t).view.emb (ix2 p k)) + B (((cfg3.win 1).blk t).view.emb (ix2 0 k)))
      * W (((cfg3.win 2).blk t).view.emb (ix2 k q)) = _
  rw [h0, h1, h2]
  rfl

variable (V : (c : Dev nD) → (b : Ref sig .tc) → Buf (Elt Ideal) ((c : Thread nD τ).loc b))

/-- What grid point `t` writes back is tile `t` of the dense step of the arrays the region finds. -/
theorem flushed_eq (c : Dev nD) (t : Fin cfg3.N) :
    (dat3 V c).flushed 3 t
      = ((cfg3.win 3).blk t).view.read (Elt Ideal) (G (V c main_v75) (V c main_v76) (V c main_arg9)) := by
  show (cfg3.win 3).cut (grid3.coords t) ((dat3 V c).after 3 t) = _
  rw [after3_3]
  unfold out3_3
  rw [View.canon_unit_zero zero_offsets]
  simp only [View.ld_unit_zero (S := S10000x64) zero_offsets, View.ld_unit_zero (S := S1x64) zero_offsets,
    View.ld_unit_zero (S := S64x64) zero_offsets]
  funext j
  exact tile_eq (V c main_v75) (V c main_v76) (V c main_arg9) t j

/-- An index of the output array is in tile `t` iff each coordinate is in the tile's range. -/
theorem mem_tile (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v77).slice (win3_3.rect t)).set ↔ _
  rw [View.set_slice_whole, Rect.mem_set_unit]
  exact Iff.rfl

/-- Row `r` lies in tile `r / 10000`. -/
theorem covered (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨e0, e1, e2, e3, e4, e5, e6, e7⟩ := idx_facts t
  have e6' : win3_3.index t (0 : Fin 2) = (i 0).val / 10000 := e6
  refine ⟨t, flush3_3 t, ?_⟩
  rw [mem_tile]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- The output array when the region ends: the dense step of the arrays the region found. -/
theorem final (c : Dev nD) :
    (dat3 V c).arrAt 3 cfg3.N = G (V c main_v75) (V c main_v76) (V c main_arg9) :=
  (dat3 V c).arrAt_eq_of_cover 3 (G (V c main_v75) (V c main_v76) (V c main_arg9)) (fun t _ => flushed_eq V c t) covered

end Cert.KernelIdeal.Layer3

end
-- ==== Proof.Head.lean ====
import proofs.«145405_j13125420057138_1_alg».proof.Proof.Gen.KernelIdeal.Frame
import proofs.«145405_j13125420057138_1_alg».proof.Proof.Dense
import Idealize.ShloMosaic.Lib.Pipeline.Value
import Idealize.ShloMosaic.Lib.ValueIdx

/-!
# The output head, as the row-tiled kernel computes it

The head sees the first 50000 rows of the last aggregation, in five tiles of 10000. At a tile it adds the last hidden
bias to every row, applies the logistic function, multiplies by the whole 64 × 5 weight matrix and adds the head's own
bias to every row of the product. An entry depends on its own row of the input only, so the five tiles written back
side by side are the head of the whole 50000-row array.
-/

set_option maxRecDepth 16384

noncomputable section

namespace Cert.KernelIdeal.Head

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem zero_offsets : (![0, 0] : Fin 2 → Nat) = fun _ => 0 := funext fun a => by fin_cases a <;> rfl

/-- The tile's payload at an entry: the logistic of the input entry plus the bias of its column, summed against the
    weight column, plus the head's bias of the result's column. -/
theorem pay_apply (x0 : Vec Ideal S10000x64 .f32) (x1 : Vec Ideal S1x64 .f32) (x2 : Vec Ideal S64x5 .f32)
    (x3 : Vec Ideal S1x5 .f32) (p : Fin 10000) (q : Fin 5) :
    k4_pay1 (F := Ideal) x0 x1 x2 x3 (ix2 p q)
      = (∑ k : Fin 64, Ideal.logistic (x0 (ix2 p k) + x1 (ix2 0 k)) * x2 (ix2 k q)) + x3 (ix2 0 q) := by
  unfold k4_pay1
  have el : broadcastTo S10000x5 x3 broadcasts_S1x5_S10000x5 (ix2 p q) = x3 (ix2 0 q) :=
    broadcastTo_apply x3 _ (ix2 p q) (ix2 0 q) (fun a => by
      match a with
      | ⟨0, _⟩ => rfl
      | ⟨1, _⟩ => rfl)
  show FloatOps.matmul (F := Ideal) dot_S10000x64_S64x5_S10000x5_1_0_0_1_n_n none _ _ (constant (F := Ideal) S10000x5 .f32 0x00000000#32) (ix2 p q)
      + broadcastTo S10000x5 (shapeCast S1x5 x3 shapeCasts_S1x5_S1x5) broadcasts_S1x5_S10000x5 (ix2 p q) = _
  simp only [shapeCast_self]
  rw [el]
  refine congrArg (· + x3 (ix2 0 q)) ?_
  refine (Cert.LibPlainDot.matmul_zero_apply dot_S10000x64_S64x5_S10000x5_1_0_0_1_n_n ⟨rfl, rfl, rfl, rfl, rfl, rfl⟩
    none _ _ p q).trans ?_
  refine Finset.sum_congr rfl fun k _ => ?_
  have eb : broadcastTo S10000x64 x1 broadcasts_S1x64_S10000x64 (ix2 p k) = x1 (ix2 0 k) :=
    broadcastTo_apply x1 _ (ix2 p k) (ix2 0 k) (fun a => by
      match a with
      | ⟨0, _⟩ => rfl
      | ⟨1, _⟩ => rfl)
  show Ideal.logistic (x0 (ix2 p k) + broadcastTo S10000x64 x1 broadcasts_S1x64_S10000x64 (ix2 p k)) * x2 (ix2 k q) = _
  rw [eb]

/-- The printed index maps over the five grid points: the input tile and the output tile move together down the rows,
    the two biases and the weights stay. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The head of whole arrays; each bias is the one row of a one-row array. -/
abbrev G (X : FVec Ideal S50000x64 .f32) (B : FVec Ideal S1x64 .f32) (W : FVec Ideal S64x5 .f32)
    (BL : FVec Ideal S1x5 .f32) : FVec Ideal S50000x5 .f32 :=
  Cert.Dense.head X (fun i => B (ix2 0 (i 0))) W (fun i => BL (ix2 0 (i 0)))

/-- The tile's payload over the tile's blocks of whole arrays is the head of the whole arrays at the tile's place. -/
theorem tile_eq (X : FVec Ideal S50000x64 .f32) (B : FVec Ideal S1x64 .f32) (W : FVec Ideal S64x5 .f32)
    (BL : FVec Ideal S1x5 .f32) (t : Fin cfg4.N) (j : S10000x5.Idx) :
    k4_pay1 (F := Ideal) (((cfg4.win 0).blk t).view.read (Elt Ideal) X) (((cfg4.win 1).blk t).view.read (Elt Ideal) B)
        (((cfg4.win 2).blk t).view.read (Elt Ideal) W) (((cfg4.win 3).blk t).view.read (Elt Ideal) BL) j
      = G X B W BL (((cfg4.win 4).blk t).view.emb j) := by
  obtain ⟨p, q, rfl⟩ : ∃ (p : Fin 10000) (q : Fin 5), j = ix2 p q := ⟨j 0, j 1, eq_ix2 j⟩
  obtain ⟨e0, e1, e2, e3, e4, e5, e6, e7, e8, e9⟩ := idx_facts t
  refine (pay_apply _ _ _ _ p q).trans ?_
  have hp := p.isLt
  have hq := q.isLt
  have h3 : ((cfg4.win 3).blk t).view.emb (ix2 0 q) = ix2 0 ((((cfg4.win 4).blk t).view.emb (ix2 p q)) 1) := by
    funext a; apply Fin.ext
    match a with
    | ⟨0, _⟩ => show win4_3.index t (0 : Fin 2) * 1 + 1 * 0 = 0; omega
    | ⟨1, _⟩ => show win4_3.index t (1 : Fin 2) * 5 + 1 * q.val = win4_4.index t (1 : Fin 2) * 5 + 1 * q.val; omega
  show _ = Cert.Dense.head X (fun i => B (ix2 0 (i 0))) W (fun i => BL (ix2 0 (i 0))) (((cfg4.win 4).blk t).view.emb (ix2 p q))
  unfold Cert.Dense.head Cert.Dense.mm
  show _ + BL (((cfg4.win 3).blk t).view.emb (ix2 0 q)) = _ + BL (ix2 0 ((((cfg4.win 4).blk t).view.emb (ix2 p q)) 1))
  rw [h3]
  refine congrArg (· + BL (ix2 0 ((((cfg4.win 4).blk t).view.emb (ix2 p q)) 1))) ?_
  refine Finset.sum_congr rfl fun k _ => ?_
  have hk := k.isLt
  have h0 : ((cfg4.win 0).blk t).view.emb (ix2 p k) = ix2 ((((cfg4.win 4).blk t).view.emb (ix2 p q)) 0) k := by
    funext a; apply Fin.ext
    match a with
    | ⟨0, _⟩ => show win4_0.index t (0 : Fin 2) * 10000 + 1 * p.val = win4_4.index t (0 : Fin 2) * 10000 + 1 * p.val; omega
    | ⟨1, _⟩ => show win4_0.index t (1 : Fin 2) * 64 + 1 * k.val = k.val; omega
  have h1 : ((cfg4.win 1).blk t).view.emb (ix2 0 k) = ix2 0 k := by
    funext a; apply Fin.ext
    match a with
    | ⟨0, _⟩ => show win4_1.index t (0 : Fin 2) * 1 + 1 * 0 = 0; omega
    | ⟨1, _⟩ => show win4_1.index t (1 : Fin 2) * 64 + 1 * k.val = k.val; omega
  have h2 : ((cfg4.win 2).blk t).view.emb (ix2 k q) = ix2 k ((((cfg4.win 4).blk t).view.emb (ix2 p q)) 1) := by
    funext a; apply Fin.ext
    match a with
    | ⟨0, _⟩ => show win4_2.index t (0 : Fin 2) * 64 + 1 * k.val = k.val; omega
    | ⟨1, _⟩ => show win4_2.index t (1 : Fin 2) * 5 + 1 * q.val = win4_4.index t (1 : Fin 2) * 5 + 1 * q.val; omega
  show Ideal.logistic (X (((cfg4.win 0).blk t).view.emb (ix2 p k)) + B (((cfg4.win 1).blk t).view.emb (ix2 0 k)))
      * W (((cfg4.win 2).blk t).view.emb (ix2 k q)) = _
  rw [h0, h1, h2]
  rfl

variable (V : (c : Dev nD) → (b : Ref sig .tc) → Buf (Elt Ideal) ((c : Thread nD τ).loc b))

/-- What grid point `t` writes back is tile `t` of the head of the arrays the region finds. -/
theorem flushed_eq (c : Dev nD) (t : Fin cfg4.N) :
    (dat4 V c).flushed 4 t
      = ((cfg4.win 4).blk t).view.read (Elt Ideal) (G (V c main_v91) (V c main_v92) (V c main_arg11) (V c main_v93)) := by
  show (cfg4.win 4).cut (grid4.coords t) ((dat4 V c).after 4 t) = _
  rw [after4_4]
  unfold out4_4
  rw [View.canon_unit_zero zero_offsets]
  simp only [View.ld_unit_zero (S := S10000x64) zero_offsets, View.ld_unit_zero (S := S1x64) zero_offsets,
    View.ld_unit_zero (S := S64x5) zero_offsets, View.ld_unit_zero (S := S1x5) zero_offsets]
  funext j
  exact tile_eq (V c main_v91) (V c main_v92) (V c main_arg11) (V c main_v93) t j

/-- An index of the output array is in tile `t` iff each coordinate is in the tile's range. -/
theorem mem_tile (t : Fin cfg4.N) (i : S50000x5.Idx) :
    i ∈ ((cfg4.win 4).blk t).view.set ↔ ∀ a : Fin 2, win4_4.index t a * S10000x5.size a ≤ (i a).val
      ∧ (i a).val < win4_4.index t a * S10000x5.size a + S10000x5.size a := by
  show i ∈ ((View.whole main_v94).slice (win4_4.rect t)).set ↔ _
  rw [View.set_slice_whole, Rect.mem_set_unit]
  exact Iff.rfl

/-- Row `r` lies in tile `r / 10000`. -/
theorem covered (i : S50000x5.Idx) :
    ∃ t : Fin cfg4.N, (cfg4.win 4).flush t = true ∧ i ∈ ((cfg4.win 4).blk t).view.set := by
  have hi0 : (i 0).val < 50000 := (i 0).isLt
  have hi1 : (i 1).val < 5 := (i 1).isLt
  have hN : cfg4.N = 5 := N_4
  let t : Fin cfg4.N := ⟨(i 0).val / 10000, by rw [hN]; omega⟩
  obtain ⟨e0, e1, e2, e3, e4, e5, e6, e7, e8, e9⟩ := idx_facts t
  have e8' : win4_4.index t (0 : Fin 2) = (i 0).val / 10000 := e8
  refine ⟨t, flush4_4 t, ?_⟩
  rw [mem_tile]
  intro a
  match a with
  | ⟨0, _⟩ => show win4_4.index t (0 : Fin 2) * 10000 ≤ (i 0).val ∧ (i 0).val < win4_4.index t (0 : Fin 2) * 10000 + 10000; omega
  | ⟨1, _⟩ => show win4_4.index t (1 : Fin 2) * 5 ≤ (i 1).val ∧ (i 1).val < win4_4.index t (1 : Fin 2) * 5 + 5; omega

/-- The output array when the region ends: the head of the arrays the region found. -/
theorem final (c : Dev nD) :
    (dat4 V c).arrAt 4 cfg4.N = G (V c main_v91) (V c main_v92) (V c main_arg11) (V c main_v93) :=
  (dat4 V c).arrAt_eq_of_cover 4 (G (V c main_v91) (V c main_v92) (V c main_arg11) (V c main_v93))
    (fun t _ => flushed_eq V c t) covered

end Cert.KernelIdeal.Head

end
-- ==== Proof.Chain.lean ====
import proofs.«145405_j13125420057138_1_alg».proof.Proof.Gen.KernelIdeal.Frame
import proofs.«145405_j13125420057138_1_alg».proof.Proof.Layer0
import proofs.«145405_j13125420057138_1_alg».proof.Proof.Layer1
import proofs.«145405_j13125420057138_1_alg».proof.Proof.Layer2
import proofs.«145405_j13125420057138_1_alg».proof.Proof.Layer3
import proofs.«145405_j13125420057138_1_alg».proof.Proof.Head
import Idealize.ShloMosaic.Lib.StableHlo.Run

/-!
# The kernel's result as one term of its arguments

The program alternates host stretches with five row-tiled regions. A host stretch gathers the previous region's rows
along the edge list, scales each gathered row by the edge's normalisation weight and scatter-adds the rows to their
destination vertices (`agg` below); a region applies the dense step of its layer to the aggregated rows. The edge
list with its self loops, the destination list and the normalisation weights are computed once, before the first
region, and no later stretch or region writes them; each weight and bias array is an argument that nothing writes.
Reading the buffers back through the stretches and the regions' write-backs therefore gives the result as the head
of the fourth aggregation of the dense steps.
-/

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Idealize.ShloMosaic.StableHlo

/-- An edge list of vertex numbers with negative numbers wrapped around the vertex count. -/
def wrap (s : IVec S3300000 32) : IVec S3300000 32 :=
  select (cmpi .slt s (broadcastInDim S3300000 ![] bcast_S_S3300000 (constantI S_ 32 0#32)))
    (addi s (broadcastInDim S3300000 ![] bcast_S_S3300000 (constantI S_ 32 100000#32))) s

/-- One neighbourhood aggregation: row `e` of the gathered array is row `src e` of `t` times the weight of edge `e`;
    the rows are added into the rows `dst e` of a zero array. -/
def agg (src dst : IVec S3300000 32) (norm : FVec Ideal S3300000 .f32) (t : FVec Ideal S100000x64 .f32) :
    FVec Ideal S100000x64 .f32 :=
  Host.scatterAdd (F := Ideal) scatter_S100000x64_S3300000x1_S3300000x64_1_0_0_1
    (broadcastInDim S100000x64 ![] bcast_S_S100000x64 (constant (F := Ideal) S_ .f32 0x00000000#32))
    (broadcastInDim S3300000x1 ![0] bcast_S3300000_S3300000x1_0 dst)
    (mulf (F := Ideal) (Host.gather gather_S100000x64_S3300000x1_S3300000x64_1_0_n_n_0_1_164 t
        (broadcastInDim S3300000x1 ![0] bcast_S3300000_S3300000x1_0 (wrap src)))
      (broadcastInDim S3300000x64 ![0, 1] bcast_S3300000x1_S3300000x64_0_1
        (broadcastInDim S3300000x1 ![0] bcast_S3300000_S3300000x1_0 norm)))

/-! ## What each host stretch between two regions writes, from any contents -/

section Stretches

variable (U : Valuation τ sig (Elt Ideal))

theorem stretch1_rows : after (hostOps1 (F := Ideal)) U (Proc.devRef .tc main_v45)
    = agg (U (Proc.devRef .tc main_v3)) (U (Proc.devRef .tc main_v6)) (U (Proc.devRef .tc main_v31)) (U (Proc.devRef .tc main_v32)) := by
  after_results_simp <;> rfl

theorem stretch1_bias : after (hostOps1 (F := Ideal)) U (Proc.devRef .tc main_v46)
    = shapeCast S1x64 (U (Proc.devRef .tc main_arg4)) shapeCasts_S64_S1x64 := by
  after_results_simp <;> rfl

theorem stretch2_rows : after (hostOps2 (F := Ideal)) U (Proc.devRef .tc main_v60)
    = agg (U (Proc.devRef .tc main_v3)) (U (Proc.devRef .tc main_v6)) (U (Proc.devRef .tc main_v31)) (U (Proc.devRef .tc main_v47)) := by
  after_results_simp <;> rfl

theorem stretch2_bias : after (hostOps2 (F := Ideal)) U (Proc.devRef .tc main_v61)
    = shapeCast S1x64 (U (Proc.devRef .tc main_arg6)) shapeCasts_S64_S1x64 := by
  after_results_simp <;> rfl

theorem stretch3_rows : after (hostOps3 (F := Ideal)) U (Proc.devRef .tc main_v75)
    = agg (U (Proc.devRef .tc main_v3)) (U (Proc.devRef .tc main_v6)) (U (Proc.devRef .tc main_v31)) (U (Proc.devRef .tc main_v62)) := by
  after_results_simp <;> rfl

theorem stretch3_bias : after (hostOps3 (F := Ideal)) U (Proc.devRef .tc main_v76)
    = shapeCast S1x64 (U (Proc.devRef .tc main_arg8)) shapeCasts_S64_S1x64 := by
  after_results_simp <;> rfl

theorem stretch4_rows : after (hostOps4 (F := Ideal)) U (Proc.devRef .tc main_v91)
    = extractStridedSlice S50000x64 ![0, 0]
        (agg (U (Proc.devRef .tc main_v3)) (U (Proc.devRef .tc main_v6)) (U (Proc.devRef .tc main_v31)) (U (Proc.devRef .tc main_v77)))
        slices_S100000x64_S50000x64_0_0 := by
  after_results_simp <;> rfl

theorem stretch4_bias : after (hostOps4 (F := Ideal)) U (Proc.devRef .tc main_v92)
    = shapeCast S1x64 (U (Proc.devRef .tc main_arg10)) shapeCasts_S64_S1x64 := by
  after_results_simp <;> rfl

theorem stretch4_headBias : after (hostOps4 (F := Ideal)) U (Proc.devRef .tc main_v93)
    = shapeCast S1x5 (U (Proc.devRef .tc main_arg12)) shapeCasts_S5_S1x5 := by
  after_results_simp <;> rfl

end Stretches

/-! ## Buffers that a stretch does not write keep their contents -/

/-- A buffer that none of a stretch's operations writes holds after the stretch what it held before. -/
macro "not_written" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg) (c : Dev nD)

/-- Through the first stretch (three lines of operations) an argument keeps its launch contents. -/
theorem first_keeps (b : Ref sig .tc)
    (h0 : after (hostOps0 (F := Ideal)) (W0 m ρ c) (Proc.devRef .tc b) = W0 m ρ c (Proc.devRef .tc b))
    (h1 : after (hostOps0_1 (F := Ideal)) (W1 m ρ c) (Proc.devRef .tc b) = W1 m ρ c (Proc.devRef .tc b))
    (h2 : after (hostOps0_2 (F := Ideal)) (W2 m ρ c) (Proc.devRef .tc b) = W2 m ρ c (Proc.devRef .tc b)) :
    W3 m ρ c (Proc.devRef .tc b) = m ((c : Thread nD τ).loc b) :=
  h2.trans (h1.trans h0)

theorem arg0_at3 : W3 m ρ c (Proc.devRef .tc main_arg0) = m ((c : Thread nD τ).loc main_arg0) :=
  first_keeps m ρ c main_arg0 (by not_written hostOps0) (by not_written hostOps0_1) (by not_written hostOps0_2)
theorem arg3_at3 : W3 m ρ c (Proc.devRef .tc main_arg3) = m ((c : Thread nD τ).loc main_arg3) :=
  first_keeps m ρ c main_arg3 (by not_written hostOps0) (by not_written hostOps0_1) (by not_written hostOps0_2)
theorem arg4_at3 : W3 m ρ c (Proc.devRef .tc main_arg4) = m ((c : Thread nD τ).loc main_arg4) :=
  first_keeps m ρ c main_arg4 (by not_written hostOps0) (by not_written hostOps0_1) (by not_written hostOps0_2)
theorem arg5_at3 : W3 m ρ c (Proc.devRef .tc main_arg5) = m ((c : Thread nD τ).loc main_arg5) :=
  first_keeps m ρ c main_arg5 (by not_written hostOps0) (by not_written hostOps0_1) (by not_written hostOps0_2)
theorem arg6_at3 : W3 m ρ c (Proc.devRef .tc main_arg6) = m ((c : Thread nD τ).loc main_arg6) :=
  first_keeps m ρ c main_arg6 (by not_written hostOps0) (by not_written hostOps0_1) (by not_written hostOps0_2)
theorem arg7_at3 : W3 m ρ c (Proc.devRef .tc main_arg7) = m ((c : Thread nD τ).loc main_arg7) :=
  first_keeps m ρ c main_arg7 (by not_written hostOps0) (by not_written hostOps0_1) (by not_written hostOps0_2)
theorem arg8_at3 : W3 m ρ c (Proc.devRef .tc main_arg8) = m ((c : Thread nD τ).loc main_arg8) :=
  first_keeps m ρ c main_arg8 (by not_written hostOps0) (by not_written hostOps0_1) (by not_written hostOps0_2)
theorem arg9_at3 : W3 m ρ c (Proc.devRef .tc main_arg9) = m ((c : Thread nD τ).loc main_arg9) :=
  first_keeps m ρ c main_arg9 (by not_written hostOps0) (by not_written hostOps0_1) (by not_written hostOps0_2)
theorem arg10_at3 : W3 m ρ c (Proc.devRef .tc main_arg10) = m ((c : Thread nD τ).loc main_arg10) :=
  first_keeps m ρ c main_arg10 (by not_written hostOps0) (by not_written hostOps0_1) (by not_written hostOps0_2)
theorem arg11_at3 : W3 m ρ c (Proc.devRef .tc main_arg11) = m ((c : Thread nD τ).loc main_arg11) :=
  first_keeps m ρ c main_arg11 (by not_written hostOps0) (by not_written hostOps0_1) (by not_written hostOps0_2)
theorem arg12_at3 : W3 m ρ c (Proc.devRef .tc main_arg12) = m ((c : Thread nD τ).loc main_arg12) :=
  first_keeps m ρ c main_arg12 (by not_written hostOps0) (by not_written hostOps0_1) (by not_written hostOps0_2)

/-! Region 0 writes its output array only. -/
theorem main_v3_at4 : W4 m ρ c (Proc.devRef .tc main_v3) = W3 m ρ c (Proc.devRef .tc main_v3) := W4_of_ne m ρ c main_v3 (by decide)
theorem main_v6_at4 : W4 m ρ c (Proc.devRef .tc main_v6) = W3 m ρ c (Proc.devRef .tc main_v6) := W4_of_ne m ρ c main_v6 (by decide)
theorem main_v31_at4 : W4 m ρ c (Proc.devRef .tc main_v31) = W3 m ρ c (Proc.devRef .tc main_v31) := W4_of_ne m ρ c main_v31 (by decide)
theorem main_arg4_at4 : W4 m ρ c (Proc.devRef .tc main_arg4) = W3 m ρ c (Proc.devRef .tc main_arg4) := W4_of_ne m ρ c main_arg4 (by decide)
theorem main_arg5_at4 : W4 m ρ c (Proc.devRef .tc main_arg5) = W3 m ρ c (Proc.devRef .tc main_arg5) := W4_of_ne m ρ c main_arg5 (by decide)
theorem main_arg6_at4 : W4 m ρ c (Proc.devRef .tc main_arg6) = W3 m ρ c (Proc.devRef .tc main_arg6) := W4_of_ne m ρ c main_arg6 (by decide)
theorem main_arg7_at4 : W4 m ρ c (Proc.devRef .tc main_arg7) = W3 m ρ c (Proc.devRef .tc main_arg7) := W4_of_ne m ρ c main_arg7 (by decide)
theorem main_arg8_at4 : W4 m ρ c (Proc.devRef .tc main_arg8) = W3 m ρ c (Proc.devRef .tc main_arg8) := W4_of_ne m ρ c main_arg8 (by decide)
theorem main_arg9_at4 : W4 m ρ c (Proc.devRef .tc main_arg9) = W3 m ρ c (Proc.devRef .tc main_arg9) := W4_of_ne m ρ c main_arg9 (by decide)
theorem main_arg10_at4 : W4 m ρ c (Proc.devRef .tc main_arg10) = W3 m ρ c (Proc.devRef .tc main_arg10) := W4_of_ne m ρ c main_arg10 (by decide)
theorem main_arg11_at4 : W4 m ρ c (Proc.devRef .tc main_arg11) = W3 m ρ c (Proc.devRef .tc main_arg11) := W4_of_ne m ρ c main_arg11 (by decide)
theorem main_arg12_at4 : W4 m ρ c (Proc.devRef .tc main_arg12) = W3 m ρ c (Proc.devRef .tc main_arg12) := W4_of_ne m ρ c main_arg12 (by decide)

/-! The second stretch. -/
theorem main_v3_at5 : W5 m ρ c (Proc.devRef .tc main_v3) = W3 m ρ c (Proc.devRef .tc main_v3) :=
  (show after (hostOps1 (F := Ideal)) (W4 m ρ c) (Proc.devRef .tc main_v3) = W4 m ρ c (Proc.devRef .tc main_v3) by not_written hostOps1).trans (main_v3_at4 m ρ c)
theorem main_v6_at5 : W5 m ρ c (Proc.devRef .tc main_v6) = W3 m ρ c (Proc.devRef .tc main_v6) :=
  (show after (hostOps1 (F := Ideal)) (W4 m ρ c) (Proc.devRef .tc main_v6) = W4 m ρ c (Proc.devRef .tc main_v6) by not_written hostOps1).trans (main_v6_at4 m ρ c)
theorem main_v31_at5 : W5 m ρ c (Proc.devRef .tc main_v31) = W3 m ρ c (Proc.devRef .tc main_v31) :=
  (show after (hostOps1 (F := Ideal)) (W4 m ρ c) (Proc.devRef .tc main_v31) = W4 m ρ c (Proc.devRef .tc main_v31) by not_written hostOps1).trans (main_v31_at4 m ρ c)
theorem main_arg5_at5 : W5 m ρ c (Proc.devRef .tc main_arg5) = W3 m ρ c (Proc.devRef .tc main_arg5) :=
  (show after (hostOps1 (F := Ideal)) (W4 m ρ c) (Proc.devRef .tc main_arg5) = W4 m ρ c (Proc.devRef .tc main_arg5) by not_written hostOps1).trans (main_arg5_at4 m ρ c)
theorem main_arg6_at5 : W5 m ρ c (Proc.devRef .tc main_arg6) = W3 m ρ c (Proc.devRef .tc main_arg6) :=
  (show after (hostOps1 (F := Ideal)) (W4 m ρ c) (Proc.devRef .tc main_arg6) = W4 m ρ c (Proc.devRef .tc main_arg6) by not_written hostOps1).trans (main_arg6_at4 m ρ c)
theorem main_arg7_at5 : W5 m ρ c (Proc.devRef .tc main_arg7) = W3 m ρ c (Proc.devRef .tc main_arg7) :=
  (show after (hostOps1 (F := Ideal)) (W4 m ρ c) (Proc.devRef .tc main_arg7) = W4 m ρ c (Proc.devRef .tc main_arg7) by not_written hostOps1).trans (main_arg7_at4 m ρ c)
theorem main_arg8_at5 : W5 m ρ c (Proc.devRef .tc main_arg8) = W3 m ρ c (Proc.devRef .tc main_arg8) :=
  (show after (hostOps1 (F := Ideal)) (W4 m ρ c) (Proc.devRef .tc main_arg8) = W4 m ρ c (Proc.devRef .tc main_arg8) by not_written hostOps1).trans (main_arg8_at4 m ρ c)
theorem main_arg9_at5 : W5 m ρ c (Proc.devRef .tc main_arg9) = W3 m ρ c (Proc.devRef .tc main_arg9) :=
  (show after (hostOps1 (F := Ideal)) (W4 m ρ c) (Proc.devRef .tc main_arg9) = W4 m ρ c (Proc.devRef .tc main_arg9) by not_written hostOps1).trans (main_arg9_at4 m ρ c)
theorem main_arg10_at5 : W5 m ρ c (Proc.devRef .tc main_arg10) = W3 m ρ c (Proc.devRef .tc main_arg10) :=
  (show after (hostOps1 (F := Ideal)) (W4 m ρ c) (Proc.devRef .tc main_arg10) = W4 m ρ c (Proc.devRef .tc main_arg10) by not_written hostOps1).trans (main_arg10_at4 m ρ c)
theorem main_arg11_at5 : W5 m ρ c (Proc.devRef .tc main_arg11) = W3 m ρ c (Proc.devRef .tc main_arg11) :=
  (show after (hostOps1 (F := Ideal)) (W4 m ρ c) (Proc.devRef .tc main_arg11) = W4 m ρ c (Proc.devRef .tc main_arg11) by not_written hostOps1).trans (main_arg11_at4 m ρ c)
theorem main_arg12_at5 : W5 m ρ c (Proc.devRef .tc main_arg12) = W3 m ρ c (Proc.devRef .tc main_arg12) :=
  (show after (hostOps1 (F := Ideal)) (W4 m ρ c) (Proc.devRef .tc main_arg12) = W4 m ρ c (Proc.devRef .tc main_arg12) by not_written hostOps1).trans (main_arg12_at4 m ρ c)

/-! Region 1. -/
theorem main_v3_at6 : W6 m ρ c (Proc.devRef .tc main_v3) = W3 m ρ c (Proc.devRef .tc main_v3) := (W6_of_ne m ρ c main_v3 (by decide)).trans (main_v3_at5 m ρ c)
theorem main_v6_at6 : W6 m ρ c (Proc.devRef .tc main_v6) = W3 m ρ c (Proc.devRef .tc main_v6) := (W6_of_ne m ρ c main_v6 (by decide)).trans (main_v6_at5 m ρ c)
theorem main_v31_at6 : W6 m ρ c (Proc.devRef .tc main_v31) = W3 m ρ c (Proc.devRef .tc main_v31) := (W6_of_ne m ρ c main_v31 (by decide)).trans (main_v31_at5 m ρ c)
theorem main_arg6_at6 : W6 m ρ c (Proc.devRef .tc main_arg6) = W3 m ρ c (Proc.devRef .tc main_arg6) := (W6_of_ne m ρ c main_arg6 (by decide)).trans (main_arg6_at5 m ρ c)
theorem main_arg7_at6 : W6 m ρ c (Proc.devRef .tc main_arg7) = W3 m ρ c (Proc.devRef .tc main_arg7) := (W6_of_ne m ρ c main_arg7 (by decide)).trans (main_arg7_at5 m ρ c)
theorem main_arg8_at6 : W6 m ρ c (Proc.devRef .tc main_arg8) = W3 m ρ c (Proc.devRef .tc main_arg8) := (W6_of_ne m ρ c main_arg8 (by decide)).trans (main_arg8_at5 m ρ c)
theorem main_arg9_at6 : W6 m ρ c (Proc.devRef .tc main_arg9) = W3 m ρ c (Proc.devRef .tc main_arg9) := (W6_of_ne m ρ c main_arg9 (by decide)).trans (main_arg9_at5 m ρ c)
theorem main_arg10_at6 : W6 m ρ c (Proc.devRef .tc main_arg10) = W3 m ρ c (Proc.devRef .tc main_arg10) := (W6_of_ne m ρ c main_arg10 (by decide)).trans (main_arg10_at5 m ρ c)
theorem main_arg11_at6 : W6 m ρ c (Proc.devRef .tc main_arg11) = W3 m ρ c (Proc.devRef .tc main_arg11) := (W6_of_ne m ρ c main_arg11 (by decide)).trans (main_arg11_at5 m ρ c)
theorem main_arg12_at6 : W6 m ρ c (Proc.devRef .tc main_arg12) = W3 m ρ c (Proc.devRef .tc main_arg12) := (W6_of_ne m ρ c main_arg12 (by decide)).trans (main_arg12_at5 m ρ c)

/-! The third stretch. -/
theorem main_v3_at7 : W7 m ρ c (Proc.devRef .tc main_v3) = W3 m ρ c (Proc.devRef .tc main_v3) :=
  (show after (hostOps2 (F := Ideal)) (W6 m ρ c) (Proc.devRef .tc main_v3) = W6 m ρ c (Proc.devRef .tc main_v3) by not_written hostOps2).trans (main_v3_at6 m ρ c)
theorem main_v6_at7 : W7 m ρ c (Proc.devRef .tc main_v6) = W3 m ρ c (Proc.devRef .tc main_v6) :=
  (show after (hostOps2 (F := Ideal)) (W6 m ρ c) (Proc.devRef .tc main_v6) = W6 m ρ c (Proc.devRef .tc main_v6) by not_written hostOps2).trans (main_v6_at6 m ρ c)
theorem main_v31_at7 : W7 m ρ c (Proc.devRef .tc main_v31) = W3 m ρ c (Proc.devRef .tc main_v31) :=
  (show after (hostOps2 (F := Ideal)) (W6 m ρ c) (Proc.devRef .tc main_v31) = W6 m ρ c (Proc.devRef .tc main_v31) by not_written hostOps2).trans (main_v31_at6 m ρ c)
theorem main_arg7_at7 : W7 m ρ c (Proc.devRef .tc main_arg7) = W3 m ρ c (Proc.devRef .tc main_arg7) :=
  (show after (hostOps2 (F := Ideal)) (W6 m ρ c) (Proc.devRef .tc main_arg7) = W6 m ρ c (Proc.devRef .tc main_arg7) by not_written hostOps2).trans (main_arg7_at6 m ρ c)
theorem main_arg8_at7 : W7 m ρ c (Proc.devRef .tc main_arg8) = W3 m ρ c (Proc.devRef .tc main_arg8) :=
  (show after (hostOps2 (F := Ideal)) (W6 m ρ c) (Proc.devRef .tc main_arg8) = W6 m ρ c (Proc.devRef .tc main_arg8) by not_written hostOps2).trans (main_arg8_at6 m ρ c)
theorem main_arg9_at7 : W7 m ρ c (Proc.devRef .tc main_arg9) = W3 m ρ c (Proc.devRef .tc main_arg9) :=
  (show after (hostOps2 (F := Ideal)) (W6 m ρ c) (Proc.devRef .tc main_arg9) = W6 m ρ c (Proc.devRef .tc main_arg9) by not_written hostOps2).trans (main_arg9_at6 m ρ c)
theorem main_arg10_at7 : W7 m ρ c (Proc.devRef .tc main_arg10) = W3 m ρ c (Proc.devRef .tc main_arg10) :=
  (show after (hostOps2 (F := Ideal)) (W6 m ρ c) (Proc.devRef .tc main_arg10) = W6 m ρ c (Proc.devRef .tc main_arg10) by not_written hostOps2).trans (main_arg10_at6 m ρ c)
theorem main_arg11_at7 : W7 m ρ c (Proc.devRef .tc main_arg11) = W3 m ρ c (Proc.devRef .tc main_arg11) :=
  (show after (hostOps2 (F := Ideal)) (W6 m ρ c) (Proc.devRef .tc main_arg11) = W6 m ρ c (Proc.devRef .tc main_arg11) by not_written hostOps2).trans (main_arg11_at6 m ρ c)
theorem main_arg12_at7 : W7 m ρ c (Proc.devRef .tc main_arg12) = W3 m ρ c (Proc.devRef .tc main_arg12) :=
  (show after (hostOps2 (F := Ideal)) (W6 m ρ c) (Proc.devRef .tc main_arg12) = W6 m ρ c (Proc.devRef .tc main_arg12) by not_written hostOps2).trans (main_arg12_at6 m ρ c)

/-! Region 2. -/
theorem main_v3_at8 : W8 m ρ c (Proc.devRef .tc main_v3) = W3 m ρ c (Proc.devRef .tc main_v3) := (W8_of_ne m ρ c main_v3 (by decide)).trans (main_v3_at7 m ρ c)
theorem main_v6_at8 : W8 m ρ c (Proc.devRef .tc main_v6) = W3 m ρ c (Proc.devRef .tc main_v6) := (W8_of_ne m ρ c main_v6 (by decide)).trans (main_v6_at7 m ρ c)
theorem main_v31_at8 : W8 m ρ c (Proc.devRef .tc main_v31) = W3 m ρ c (Proc.devRef .tc main_v31) := (W8_of_ne m ρ c main_v31 (by decide)).trans (main_v31_at7 m ρ c)
theorem main_arg8_at8 : W8 m ρ c (Proc.devRef .tc main_arg8) = W3 m ρ c (Proc.devRef .tc main_arg8) := (W8_of_ne m ρ c main_arg8 (by decide)).trans (main_arg8_at7 m ρ c)
theorem main_arg9_at8 : W8 m ρ c (Proc.devRef .tc main_arg9) = W3 m ρ c (Proc.devRef .tc main_arg9) := (W8_of_ne m ρ c main_arg9 (by decide)).trans (main_arg9_at7 m ρ c)
theorem main_arg10_at8 : W8 m ρ c (Proc.devRef .tc main_arg10) = W3 m ρ c (Proc.devRef .tc main_arg10) := (W8_of_ne m ρ c main_arg10 (by decide)).trans (main_arg10_at7 m ρ c)
theorem main_arg11_at8 : W8 m ρ c (Proc.devRef .tc main_arg11) = W3 m ρ c (Proc.devRef .tc main_arg11) := (W8_of_ne m ρ c main_arg11 (by decide)).trans (main_arg11_at7 m ρ c)
theorem main_arg12_at8 : W8 m ρ c (Proc.devRef .tc main_arg12) = W3 m ρ c (Proc.devRef .tc main_arg12) := (W8_of_ne m ρ c main_arg12 (by decide)).trans (main_arg12_at7 m ρ c)

/-! The fourth stretch. -/
theorem main_v3_at9 : W9 m ρ c (Proc.devRef .tc main_v3) = W3 m ρ c (Proc.devRef .tc main_v3) :=
  (show after (hostOps3 (F := Ideal)) (W8 m ρ c) (Proc.devRef .tc main_v3) = W8 m ρ c (Proc.devRef .tc main_v3) by not_written hostOps3).trans (main_v3_at8 m ρ c)
theorem main_v6_at9 : W9 m ρ c (Proc.devRef .tc main_v6) = W3 m ρ c (Proc.devRef .tc main_v6) :=
  (show after (hostOps3 (F := Ideal)) (W8 m ρ c) (Proc.devRef .tc main_v6) = W8 m ρ c (Proc.devRef .tc main_v6) by not_written hostOps3).trans (main_v6_at8 m ρ c)
theorem main_v31_at9 : W9 m ρ c (Proc.devRef .tc main_v31) = W3 m ρ c (Proc.devRef .tc main_v31) :=
  (show after (hostOps3 (F := Ideal)) (W8 m ρ c) (Proc.devRef .tc main_v31) = W8 m ρ c (Proc.devRef .tc main_v31) by not_written hostOps3).trans (main_v31_at8 m ρ c)
theorem main_arg9_at9 : W9 m ρ c (Proc.devRef .tc main_arg9) = W3 m ρ c (Proc.devRef .tc main_arg9) :=
  (show after (hostOps3 (F := Ideal)) (W8 m ρ c) (Proc.devRef .tc main_arg9) = W8 m ρ c (Proc.devRef .tc main_arg9) by not_written hostOps3).trans (main_arg9_at8 m ρ c)
theorem main_arg10_at9 : W9 m ρ c (Proc.devRef .tc main_arg10) = W3 m ρ c (Proc.devRef .tc main_arg10) :=
  (show after (hostOps3 (F := Ideal)) (W8 m ρ c) (Proc.devRef .tc main_arg10) = W8 m ρ c (Proc.devRef .tc main_arg10) by not_written hostOps3).trans (main_arg10_at8 m ρ c)
theorem main_arg11_at9 : W9 m ρ c (Proc.devRef .tc main_arg11) = W3 m ρ c (Proc.devRef .tc main_arg11) :=
  (show after (hostOps3 (F := Ideal)) (W8 m ρ c) (Proc.devRef .tc main_arg11) = W8 m ρ c (Proc.devRef .tc main_arg11) by not_written hostOps3).trans (main_arg11_at8 m ρ c)
theorem main_arg12_at9 : W9 m ρ c (Proc.devRef .tc main_arg12) = W3 m ρ c (Proc.devRef .tc main_arg12) :=
  (show after (hostOps3 (F := Ideal)) (W8 m ρ c) (Proc.devRef .tc main_arg12) = W8 m ρ c (Proc.devRef .tc main_arg12) by not_written hostOps3).trans (main_arg12_at8 m ρ c)

/-! Region 3. -/
theorem main_v3_at10 : W10 m ρ c (Proc.devRef .tc main_v3) = W3 m ρ c (Proc.devRef .tc main_v3) := (W10_of_ne m ρ c main_v3 (by decide)).trans (main_v3_at9 m ρ c)
theorem main_v6_at10 : W10 m ρ c (Proc.devRef .tc main_v6) = W3 m ρ c (Proc.devRef .tc main_v6) := (W10_of_ne m ρ c main_v6 (by decide)).trans (main_v6_at9 m ρ c)
theorem main_v31_at10 : W10 m ρ c (Proc.devRef .tc main_v31) = W3 m ρ c (Proc.devRef .tc main_v31) := (W10_of_ne m ρ c main_v31 (by decide)).trans (main_v31_at9 m ρ c)
theorem main_arg10_at10 : W10 m ρ c (Proc.devRef .tc main_arg10) = W3 m ρ c (Proc.devRef .tc main_arg10) := (W10_of_ne m ρ c main_arg10 (by decide)).trans (main_arg10_at9 m ρ c)
theorem main_arg11_at10 : W10 m ρ c (Proc.devRef .tc main_arg11) = W3 m ρ c (Proc.devRef .tc main_arg11) := (W10_of_ne m ρ c main_arg11 (by decide)).trans (main_arg11_at9 m ρ c)
theorem main_arg12_at10 : W10 m ρ c (Proc.devRef .tc main_arg12) = W3 m ρ c (Proc.devRef .tc main_arg12) := (W10_of_ne m ρ c main_arg12 (by decide)).trans (main_arg12_at9 m ρ c)

/-! The last stretch. -/
theorem main_arg11_at11 : W11 m ρ c (Proc.devRef .tc main_arg11) = W3 m ρ c (Proc.devRef .tc main_arg11) :=
  (show after (hostOps4 (F := Ideal)) (W10 m ρ c) (Proc.devRef .tc main_arg11) = W10 m ρ c (Proc.devRef .tc main_arg11) by not_written hostOps4).trans (main_arg11_at10 m ρ c)

/-! ## The chain -/

/-- The edge sources with the self loops appended, as the first stretch leaves them. -/
abbrev srcs : IVec S3300000 32 := W3 m ρ c (Proc.devRef .tc main_v3)
/-- The edge destinations with the self loops appended. -/
abbrev dsts : IVec S3300000 32 := W3 m ρ c (Proc.devRef .tc main_v6)
/-- The normalisation weight of every edge. -/
abbrev norms : FVec Ideal S3300000 .f32 := W3 m ρ c (Proc.devRef .tc main_v31)

/-- The input layer's transform. -/
def t1 : FVec Ideal S100000x64 .f32 :=
  Layer0.G (m ((c : Thread nD τ).loc main_arg0)) (m ((c : Thread nD τ).loc main_arg3))
/-- Hidden layer 1's dense step of the first aggregation. -/
def t2 : FVec Ideal S100000x64 .f32 :=
  Layer1.G (agg (srcs m ρ c) (dsts m ρ c) (norms m ρ c) (t1 m c))
    (shapeCast S1x64 (m ((c : Thread nD τ).loc main_arg4)) shapeCasts_S64_S1x64) (m ((c : Thread nD τ).loc main_arg5))
/-- Hidden layer 2's. -/
def t3 : FVec Ideal S100000x64 .f32 :=
  Layer2.G (agg (srcs m ρ c) (dsts m ρ c) (norms m ρ c) (t2 m ρ c))
    (shapeCast S1x64 (m ((c : Thread nD τ).loc main_arg6)) shapeCasts_S64_S1x64) (m ((c : Thread nD τ).loc main_arg7))
/-- Hidden layer 3's. -/
def t4 : FVec Ideal S100000x64 .f32 :=
  Layer3.G (agg (srcs m ρ c) (dsts m ρ c) (norms m ρ c) (t3 m ρ c))
    (shapeCast S1x64 (m ((c : Thread nD τ).loc main_arg8)) shapeCasts_S64_S1x64) (m ((c : Thread nD τ).loc main_arg9))
/-- The head of the first 50000 rows of the fourth aggregation. -/
def out : FVec Ideal S50000x5 .f32 :=
  Head.G (extractStridedSlice S50000x64 ![0, 0] (agg (srcs m ρ c) (dsts m ρ c) (norms m ρ c) (t4 m ρ c)) slices_S100000x64_S50000x64_0_0)
    (shapeCast S1x64 (m ((c : Thread nD τ).loc main_arg10)) shapeCasts_S64_S1x64) (m ((c : Thread nD τ).loc main_arg11))
    (shapeCast S1x5 (m ((c : Thread nD τ).loc main_arg12)) shapeCasts_S5_S1x5)

theorem t1_at4 : W4 m ρ c (Proc.devRef .tc main_v32) = t1 m c := by
  refine (W4_arr m ρ c 2).trans ((Layer0.final (V3 m ρ) c).trans ?_)
  show Layer0.G (W3 m ρ c (Proc.devRef .tc main_arg0)) (W3 m ρ c (Proc.devRef .tc main_arg3)) = _
  rw [arg0_at3, arg3_at3]; rfl

theorem t2_at6 : W6 m ρ c (Proc.devRef .tc main_v47) = t2 m ρ c := by
  refine (W6_arr m ρ c 3).trans ((Layer1.final (V5 m ρ) c).trans ?_)
  show Layer1.G (after (hostOps1 (F := Ideal)) (W4 m ρ c) (Proc.devRef .tc main_v45))
      (after (hostOps1 (F := Ideal)) (W4 m ρ c) (Proc.devRef .tc main_v46)) (W5 m ρ c (Proc.devRef .tc main_arg5)) = _
  rw [stretch1_rows, stretch1_bias, main_v3_at4, main_v6_at4, main_v31_at4, t1_at4, main_arg4_at4, arg4_at3,
    main_arg5_at5, arg5_at3]
  rfl

theorem t3_at8 : W8 m ρ c (Proc.devRef .tc main_v62) = t3 m ρ c := by
  refine (W8_arr m ρ c 3).trans ((Layer2.final (V7 m ρ) c).trans ?_)
  show Layer2.G (after (hostOps2 (F := Ideal)) (W6 m ρ c) (Proc.devRef .tc main_v60))
      (after (hostOps2 (F := Ideal)) (W6 m ρ c) (Proc.devRef .tc main_v61)) (W7 m ρ c (Proc.devRef .tc main_arg7)) = _
  rw [stretch2_rows, stretch2_bias, main_v3_at6, main_v6_at6, main_v31_at6, t2_at6, main_arg6_at6, arg6_at3,
    main_arg7_at7, arg7_at3]
  rfl

theorem t4_at10 : W10 m ρ c (Proc.devRef .tc main_v77) = t4 m ρ c := by
  refine (W10_arr m ρ c 3).trans ((Layer3.final (V9 m ρ) c).trans ?_)
  show Layer3.G (after (hostOps3 (F := Ideal)) (W8 m ρ c) (Proc.devRef .tc main_v75))
      (after (hostOps3 (F := Ideal)) (W8 m ρ c) (Proc.devRef .tc main_v76)) (W9 m ρ c (Proc.devRef .tc main_arg9)) = _
  rw [stretch3_rows, stretch3_bias, main_v3_at8, main_v6_at8, main_v31_at8, t3_at8, main_arg8_at8, arg8_at3,
    main_arg9_at9, arg9_at3]
  rfl

/-- THE RESULT BUFFER at the last boundary is `out` of the arguments. -/
theorem out_at12 : W12 m ρ c (Proc.devRef .tc main_v94) = out m ρ c := by
  refine (W12_arr m ρ c 4).trans ((Head.final (V11 m ρ) c).trans ?_)
  show Head.G (after (hostOps4 (F := Ideal)) (W10 m ρ c) (Proc.devRef .tc main_v91))
      (after (hostOps4 (F := Ideal)) (W10 m ρ c) (Proc.devRef .tc main_v92)) (W11 m ρ c (Proc.devRef .tc main_arg11))
      (after (hostOps4 (F := Ideal)) (W10 m ρ c) (Proc.devRef .tc main_v93)) = _
  rw [stretch4_rows, stretch4_bias, stretch4_headBias, main_v3_at10, main_v6_at10, main_v31_at10, t4_at10,
    main_arg10_at10, arg10_at3, main_arg12_at10, arg12_at3, main_arg11_at11, arg11_at3]
  rfl

end Cert.KernelIdeal.Chain

end
-- ==== Proof.Bridge.lean ====
import proofs.«145405_j13125420057138_1_alg».proof.Defs
import proofs.«145405_j13125420057138_1_alg».proof.Proof.Gen.ReferenceIdeal.Run
import proofs.«145405_j13125420057138_1_alg».proof.Proof.Gen.ReferenceIdeal.Read
import proofs.«145405_j13125420057138_1_alg».proof.Proof.Chain
import proofs.«145405_j13125420057138_1_alg».proof.Proof.Dense

/-!
# The reference computes the kernel's term

The reference applies, layer after layer, a whole-array matrix product, the same neighbourhood aggregation (with the
normalisation weights recomputed by the same operations each time), the bias along the rows and the logistic function
spelt as `1 / (1 + exp (-x))`; it slices the first 50000 rows at the very end. The matrix products and the logistic
quotients are the dense steps of `Cert.Dense`; the slice commutes with the head because an entry of the head depends
on its own row only; the aggregations are the same operations on both sides.
-/

set_option maxRecDepth 16384

noncomputable section

namespace Cert.Bridge

open Idealize.ShloMosaic Idealize.ShloMosaic.TcCoe Idealize.ShloMosaic.ValueIdx Idealize.SL.Sem
open Idealize.ShloMosaic.StableHlo

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's three matrix products. -/
theorem dot6 (x : FVec Ideal Cert.ReferenceIdeal.S100000x6 .f32) (w : FVec Ideal Cert.ReferenceIdeal.S6x64 .f32) :
    Host.dotGeneral Cert.ReferenceIdeal.dot_S100000x6_S6x64_S100000x64_1_0_0_1_n_n none x w = Cert.Dense.mm x w :=
  Cert.Dense.dotGeneral_eq_mm _ ⟨rfl, rfl, rfl, rfl, rfl, rfl⟩ none x w

theorem dot64 (x : FVec Ideal Cert.ReferenceIdeal.S100000x64 .f32) (w : FVec Ideal Cert.ReferenceIdeal.S64x64 .f32) :
    Host.dotGeneral Cert.ReferenceIdeal.dot_S100000x64_S64x64_S100000x64_1_0_0_1_n_n none x w = Cert.Dense.mm x w :=
  Cert.Dense.dotGeneral_eq_mm _ ⟨rfl, rfl, rfl, rfl, rfl, rfl⟩ none x w

theorem dot5 (x : FVec Ideal Cert.ReferenceIdeal.S100000x64 .f32) (w : FVec Ideal Cert.ReferenceIdeal.S64x5 .f32) :
    Host.dotGeneral Cert.ReferenceIdeal.dot_S100000x64_S64x5_S100000x5_1_0_0_1_n_n none x w = Cert.Dense.mm x w :=
  Cert.Dense.dotGeneral_eq_mm _ ⟨rfl, rfl, rfl, rfl, rfl, rfl⟩ none x w

/-- The reference's logistic quotient of a biased array. -/
theorem sig64 (hc : Cert.ReferenceIdeal.S_.BroadcastsInDim Cert.ReferenceIdeal.S100000x64 ![])
    (h2 : Cert.ReferenceIdeal.S1x64.BroadcastsInDim Cert.ReferenceIdeal.S100000x64 ![0, 1])
    (h1 : Cert.ReferenceIdeal.S64.BroadcastsInDim Cert.ReferenceIdeal.S1x64 ![1])
    (x : FVec Ideal Cert.ReferenceIdeal.S100000x64 .f32) (b : FVec Ideal Cert.ReferenceIdeal.S64 .f32) :
    Host.divf (broadcastInDim Cert.ReferenceIdeal.S100000x64 ![] hc
        (constant (F := Ideal) Cert.ReferenceIdeal.S_ .f32 0x3F800000#32))
      (addf (broadcastInDim Cert.ReferenceIdeal.S100000x64 ![] hc
          (constant (F := Ideal) Cert.ReferenceIdeal.S_ .f32 0x3F800000#32))
        (Host.exp (Host.negf (addf x (broadcastInDim Cert.ReferenceIdeal.S100000x64 ![0, 1] h2
          (broadcastInDim Cert.ReferenceIdeal.S1x64 ![1] h1 b))))))
      = Cert.Dense.act x b :=
  Cert.Dense.logistic_spelt h1 h2 hc x b

/-- The edge sources, destinations and normalisation weights that the kernel's first stretch leaves are the
    reference's first-layer values of the same arguments: the same operations in the same order. -/
theorem srcs_eq : Cert.KernelIdeal.Chain.srcs m ρ c
    = Cert.ReferenceIdeal.Read.val_main_v3 (F := Ideal) (m ((c.tc : Thread Cert.KernelIdeal.nD Cert.KernelIdeal.τ).loc Cert.KernelIdeal.main_arg1)) := by
  show StableHlo.after (Cert.KernelIdeal.Gen.hostOps0_2 (F := Ideal)) (StableHlo.after (Cert.KernelIdeal.Gen.hostOps0_1 (F := Ideal))
    (StableHlo.after (Cert.KernelIdeal.Gen.hostOps0 (F := Ideal)) (Cert.KernelIdeal.Gen.W0 m ρ c))) (Proc.devRef .tc Cert.KernelIdeal.main_v3) = _
  after_results_simp <;> rfl

theorem dsts_eq : Cert.KernelIdeal.Chain.dsts m ρ c
    = Cert.ReferenceIdeal.Read.val_main_v6 (F := Ideal) (m ((c.tc : Thread Cert.KernelIdeal.nD Cert.KernelIdeal.τ).loc Cert.KernelIdeal.main_arg1)) := by
  show StableHlo.after (Cert.KernelIdeal.Gen.hostOps0_2 (F := Ideal)) (StableHlo.after (Cert.KernelIdeal.Gen.hostOps0_1 (F := Ideal))
    (StableHlo.after (Cert.KernelIdeal.Gen.hostOps0 (F := Ideal)) (Cert.KernelIdeal.Gen.W0 m ρ c))) (Proc.devRef .tc Cert.KernelIdeal.main_v6) = _
  after_results_simp <;> rfl

/-- The guard of the degree normalisation, from any contents: the reciprocal square root where the in-degree is
    positive, the zero constant elsewhere. -/
theorem where_eq (U : Valuation Cert.KernelIdeal.τ Cert.KernelIdeal.sig (Elt Ideal)) :
    StableHlo.after (Cert.KernelIdeal.Gen.hostOps0_1 (F := Ideal)) U (Proc.devRef .tc Cert.KernelIdeal.main_v15)
      = select (U (Proc.devRef .tc Cert.KernelIdeal.main_v13)) (U (Proc.devRef .tc Cert.KernelIdeal.main_v14))
          (broadcastInDim Cert.KernelIdeal.S100000 ![] Cert.KernelIdeal.Gen.bcast_S_S100000 (id (U (Proc.devRef .tc Cert.KernelIdeal.main_cst_2)))) := by
  after_results_simp <;> rfl

/-- The normalisation weights: the guarded reciprocal square roots of the in-degrees gathered at both ends of every
    edge and multiplied with the edge weight, by the operations of the reference's first layer. -/
theorem norms_eq : Cert.KernelIdeal.Chain.norms m ρ c = Cert.ReferenceIdeal.Read.val_main_v32 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  have e3 : Cert.KernelIdeal.Gen.W1 m ρ c (Proc.devRef .tc Cert.KernelIdeal.main_v3) = Cert.ReferenceIdeal.Read.val_main_v3 (F := Ideal) (m ((c.tc : Thread Cert.KernelIdeal.nD Cert.KernelIdeal.τ).loc Cert.KernelIdeal.main_arg1)) := by
    show StableHlo.after (Cert.KernelIdeal.Gen.hostOps0 (F := Ideal)) (Cert.KernelIdeal.Gen.W0 m ρ c) (Proc.devRef .tc Cert.KernelIdeal.main_v3) = _
    after_results_simp <;> rfl
  have e6 : Cert.KernelIdeal.Gen.W1 m ρ c (Proc.devRef .tc Cert.KernelIdeal.main_v6) = Cert.ReferenceIdeal.Read.val_main_v6 (F := Ideal) (m ((c.tc : Thread Cert.KernelIdeal.nD Cert.KernelIdeal.τ).loc Cert.KernelIdeal.main_arg1)) := by
    show StableHlo.after (Cert.KernelIdeal.Gen.hostOps0 (F := Ideal)) (Cert.KernelIdeal.Gen.W0 m ρ c) (Proc.devRef .tc Cert.KernelIdeal.main_v6) = _
    after_results_simp <;> rfl
  have e8 : Cert.KernelIdeal.Gen.W1 m ρ c (Proc.devRef .tc Cert.KernelIdeal.main_v8) = Cert.ReferenceIdeal.Read.val_main_v8 (F := Ideal) (m ((c.tc : Thread Cert.KernelIdeal.nD Cert.KernelIdeal.τ).loc Cert.KernelIdeal.main_arg2)) := by
    show StableHlo.after (Cert.KernelIdeal.Gen.hostOps0 (F := Ideal)) (Cert.KernelIdeal.Gen.W0 m ρ c) (Proc.devRef .tc Cert.KernelIdeal.main_v8) = _
    after_results_simp <;> rfl
  have e13 : Cert.KernelIdeal.Gen.W1 m ρ c (Proc.devRef .tc Cert.KernelIdeal.main_v13) = Cert.ReferenceIdeal.Read.val_main_v14 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
    show StableHlo.after (Cert.KernelIdeal.Gen.hostOps0 (F := Ideal)) (Cert.KernelIdeal.Gen.W0 m ρ c) (Proc.devRef .tc Cert.KernelIdeal.main_v13) = _
    after_results_simp <;> rfl
  have e14 : Cert.KernelIdeal.Gen.W1 m ρ c (Proc.devRef .tc Cert.KernelIdeal.main_v14) = Cert.ReferenceIdeal.Read.val_main_v15 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
    show StableHlo.after (Cert.KernelIdeal.Gen.hostOps0 (F := Ideal)) (Cert.KernelIdeal.Gen.W0 m ρ c) (Proc.devRef .tc Cert.KernelIdeal.main_v14) = _
    after_results_simp <;> rfl
  have ec : Cert.KernelIdeal.Gen.W1 m ρ c (Proc.devRef .tc Cert.KernelIdeal.main_cst_2) = Cert.ReferenceIdeal.Read.val_main_cst_2 (F := Ideal) := by
    show StableHlo.after (Cert.KernelIdeal.Gen.hostOps0 (F := Ideal)) (Cert.KernelIdeal.Gen.W0 m ρ c) (Proc.devRef .tc Cert.KernelIdeal.main_cst_2) = _
    after_results_simp <;> rfl
  have e3' : Cert.KernelIdeal.Gen.W2 m ρ c (Proc.devRef .tc Cert.KernelIdeal.main_v3) = _ :=
    (show StableHlo.after (Cert.KernelIdeal.Gen.hostOps0_1 (F := Ideal)) (Cert.KernelIdeal.Gen.W1 m ρ c) (Proc.devRef .tc Cert.KernelIdeal.main_v3)
      = Cert.KernelIdeal.Gen.W1 m ρ c (Proc.devRef .tc Cert.KernelIdeal.main_v3) by not_written Cert.KernelIdeal.Gen.hostOps0_1).trans e3
  have e6' : Cert.KernelIdeal.Gen.W2 m ρ c (Proc.devRef .tc Cert.KernelIdeal.main_v6) = _ :=
    (show StableHlo.after (Cert.KernelIdeal.Gen.hostOps0_1 (F := Ideal)) (Cert.KernelIdeal.Gen.W1 m ρ c) (Proc.devRef .tc Cert.KernelIdeal.main_v6)
      = Cert.KernelIdeal.Gen.W1 m ρ c (Proc.devRef .tc Cert.KernelIdeal.main_v6) by not_written Cert.KernelIdeal.Gen.hostOps0_1).trans e6
  have e8' : Cert.KernelIdeal.Gen.W2 m ρ c (Proc.devRef .tc Cert.KernelIdeal.main_v8) = _ :=
    (show StableHlo.after (Cert.KernelIdeal.Gen.hostOps0_1 (F := Ideal)) (Cert.KernelIdeal.Gen.W1 m ρ c) (Proc.devRef .tc Cert.KernelIdeal.main_v8)
      = Cert.KernelIdeal.Gen.W1 m ρ c (Proc.devRef .tc Cert.KernelIdeal.main_v8) by not_written Cert.KernelIdeal.Gen.hostOps0_1).trans e8
  have e15' : Cert.KernelIdeal.Gen.W2 m ρ c (Proc.devRef .tc Cert.KernelIdeal.main_v15) = Cert.ReferenceIdeal.Read.val_main_v16 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
    refine (where_eq (Cert.KernelIdeal.Gen.W1 m ρ c)).trans ?_
    rw [e13, e14, ec]
    rfl
  show StableHlo.after (Cert.KernelIdeal.Gen.hostOps0_2 (F := Ideal)) (Cert.KernelIdeal.Gen.W2 m ρ c) (Proc.devRef .tc Cert.KernelIdeal.main_v31) = _
  generalize Cert.KernelIdeal.Gen.W2 m ρ c = U at e3' e6' e8' e15' ⊢
  after_results_simp
  simp only [e3', e6', e8', e15']
  rfl

/-- From memories that agree on the arguments, the reference's result term is the kernel's. -/
theorem result_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v197 m' c = Cert.KernelIdeal.Chain.out m ρ c := by
  unfold Cert.ReferenceIdeal.Value.res_main_v197
  rw [h0, h1, h2, h3, h4, h5, h6, h7, h8, h9, h10, h11, h12]
  simp only [dot6, dot64, dot5]
  rw [sig64, sig64, sig64, sig64]
  rw [Cert.Dense.slice_rows (by decide : 50000 ≤ 100000), Cert.Dense.head_of_rows]
  unfold Cert.KernelIdeal.Chain.out Cert.KernelIdeal.Chain.t4 Cert.KernelIdeal.Chain.t3 Cert.KernelIdeal.Chain.t2
    Cert.KernelIdeal.Chain.t1
  simp only [Cert.KernelIdeal.Head.G, Cert.KernelIdeal.Layer3.G, Cert.KernelIdeal.Layer2.G, Cert.KernelIdeal.Layer1.G,
    Cert.KernelIdeal.Layer0.G, Cert.Dense.layer, Cert.Dense.reshape_row]
  rw [Cert.Dense.slice_rows (by decide : 50000 ≤ 100000)]
  rw [srcs_eq, dsts_eq, norms_eq]
  unfold Cert.KernelIdeal.Chain.agg Cert.KernelIdeal.Chain.wrap
  rfl

end Cert.Bridge

end
-- ==== Proof.lean ====
/-
  Four graph-convolution layers and a linear head, with the dense per-vertex steps run as row-tiled kernels and the
  edge-indexed gather and scatter-add left to the host, against the plain whole-array reference.

  Over the extended reals both programs compute, for the vertex features `x`, the edge list with self loops and the
  edge weights normalised by the in-degrees: `t₁ = x · W₁`; `tₖ₊₁ = σ(A tₖ + bₖ) · Wₖ₊₁` for the three hidden layers, where
  `A` gathers rows along the edges, scales them and adds them into their destination rows; and the head
  `σ(A t₄ + b₄) · Wₗ + bₗ` on the first 50000 rows. The kernel tiles the rows (an entry of a matrix product depends on
  its own row only), casts to a narrower float format and back (the identity here), takes the 50000 rows before the
  head where the reference takes them after, and computes the normalisation weights once where the reference recomputes
  them, by the same operations, in every layer. The logistic function is one operation in the kernel and the quotient
  `1 / (1 + exp (-x))` in the reference: the same function of an extended real. No law that needs finiteness is used.
-/
import proofs.«145405_j13125420057138_1_alg».proof.Defs
import proofs.«145405_j13125420057138_1_alg».proof.Proof.Gen.Kernel
import proofs.«145405_j13125420057138_1_alg».proof.Proof.Gen.Kernel.Skeleton
import proofs.«145405_j13125420057138_1_alg».proof.Proof.Gen.Kernel.Launch
import proofs.«145405_j13125420057138_1_alg».proof.Proof.Gen.Kernel.Points
import proofs.«145405_j13125420057138_1_alg».proof.Proof.Gen.Kernel.Frame
import proofs.«145405_j13125420057138_1_alg».proof.Proof.Gen.KernelIdeal
import proofs.«145405_j13125420057138_1_alg».proof.Proof.Gen.KernelIdeal.Skeleton
import proofs.«145405_j13125420057138_1_alg».proof.Proof.Gen.KernelIdeal.Launch
import proofs.«145405_j13125420057138_1_alg».proof.Proof.Gen.KernelIdeal.Points
import proofs.«145405_j13125420057138_1_alg».proof.Proof.Gen.KernelIdeal.Frame
import proofs.«145405_j13125420057138_1_alg».proof.Proof.Gen.ReferenceIdeal
import proofs.«145405_j13125420057138_1_alg».proof.Proof.Gen.Pre_finite_inputs
import proofs.«145405_j13125420057138_1_alg».proof.Proof.Gen.ReferenceIdeal.Run
import proofs.«145405_j13125420057138_1_alg».proof.Proof.Gen.ReferenceIdeal.Read
import proofs.«145405_j13125420057138_1_alg».proof.Proof.FoldRun
import proofs.«145405_j13125420057138_1_alg».proof.Proof.Chain
import proofs.«145405_j13125420057138_1_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel's run ends with the result buffer at the head of the fourth aggregation and the arguments
    unchanged; the reference's run ends with its result at its composed term, which is the same term of arguments that
    agree. -/
theorem algebraic : Cert.algebraic_KernelIdeal_ReferenceIdeal := by
  intro m ρ m' ρ' _ hagree
  refine ⟨fun c => Cert.KernelIdeal.Chain.out m ρ c, ?_, ?_⟩
  · refine Cert.KernelIdeal.Fold.run_fold (F := Ideal) m ρ (fun s h c => ?_)
    have rd := Cert.KernelIdeal.Fold.read_final m ρ s h c
    exact ⟨(rd Cert.KernelIdeal.main_v94 (by decide)).trans (Cert.KernelIdeal.Chain.out_at12 m ρ c),
      (rd Cert.KernelIdeal.main_arg0 (by decide)).trans (Cert.KernelIdeal.Gen.W12_main_arg0 m ρ c),
      (rd Cert.KernelIdeal.main_arg1 (by decide)).trans (Cert.KernelIdeal.Gen.W12_main_arg1 m ρ c),
      (rd Cert.KernelIdeal.main_arg2 (by decide)).trans (Cert.KernelIdeal.Gen.W12_main_arg2 m ρ c),
      (rd Cert.KernelIdeal.main_arg3 (by decide)).trans (Cert.KernelIdeal.Gen.W12_main_arg3 m ρ c),
      (rd Cert.KernelIdeal.main_arg4 (by decide)).trans (Cert.KernelIdeal.Gen.W12_main_arg4 m ρ c),
      (rd Cert.KernelIdeal.main_arg5 (by decide)).trans (Cert.KernelIdeal.Gen.W12_main_arg5 m ρ c),
      (rd Cert.KernelIdeal.main_arg6 (by decide)).trans (Cert.KernelIdeal.Gen.W12_main_arg6 m ρ c),
      (rd Cert.KernelIdeal.main_arg7 (by decide)).trans (Cert.KernelIdeal.Gen.W12_main_arg7 m ρ c),
      (rd Cert.KernelIdeal.main_arg8 (by decide)).trans (Cert.KernelIdeal.Gen.W12_main_arg8 m ρ c),
      (rd Cert.KernelIdeal.main_arg9 (by decide)).trans (Cert.KernelIdeal.Gen.W12_main_arg9 m ρ c),
      (rd Cert.KernelIdeal.main_arg10 (by decide)).trans (Cert.KernelIdeal.Gen.W12_main_arg10 m ρ c),
      (rd Cert.KernelIdeal.main_arg11 (by decide)).trans (Cert.KernelIdeal.Gen.W12_main_arg11 m ρ c),
      (rd Cert.KernelIdeal.main_arg12 (by decide)).trans (Cert.KernelIdeal.Gen.W12_main_arg12 m ρ c)⟩
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    exact Cert.Bridge.result_eq m ρ m' c a0 a1 a2 a3 a4 a5 a6 a7 a8 a9 a10 a11 a12

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
